-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2000 : Shape := ⟨2, ![50000, 2000]⟩
abbrev S2x800000 : Shape := ⟨2, ![2, 800000]⟩
abbrev S2000x256 : Shape := ⟨2, ![2000, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x2000 : S_.BroadcastsInDim S50000x2000 (![] : Fin 0 → Fin S50000x2000.rank)
  reducesTo_S50000x2000_S_d0_1 : S50000x2000.ReducesTo [0, 1] S_
  h_S_ : 0 < S_.numel
  bcast_S_S2000x256 : S_.BroadcastsInDim S2000x256 (![] : Fin 0 → Fin S2000x256.rank)
  reducesTo_S2000x256_S_d0_1 : S2000x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S256x64 .f32) (main_arg7 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x2000 .f32) (main_arg1 : IVec S2x800000 32) (main_arg2 : FVec F S2000x256 .f32) (main_arg3 : FVec F S256 .f32) (main_arg4 : FVec F S256x64 .f32) (main_arg5 : FVec F S64 .f32) (main_arg6 : FVec F S256x64 .f32) (main_arg7 : FVec F S64 .f32) : IVec S_ 1 :=
  let main_v0 : FVec F S50000x2000 .f32 := Host.absf main_arg0
  let main_cst : FVec F S_ .f32 := constant S_ .f32 0x7F800000#32
  let main_v1 : FVec F S50000x2000 .f32 := broadcastInDim S50000x2000 ![] bcast_S_S50000x2000 main_cst
  let main_v2 : IVec S50000x2000 1 := cmpf .olt main_v0 main_v1
  let main_c : IVec S_ 1 := constantI S_ 1 1#1
  let main_v3 : IVec S_ 1 := (fun x v => Host.reduce IntOp.andi x v reducesTo_S50000x2000_S_d0_1 h_S_) main_v2 main_c
  let main_v4 : FVec F S2000x256 .f32 := Host.absf main_arg2
  let main_cst_0 : FVec F S_ .f32 := constant S_ .f32 0x7F800000#32
  let main_v5 : FVec F S2000x256 .f32 := broadcastInDim S2000x256 ![] bcast_S_S2000x256 main_cst_0
  let main_v6 : IVec S2000x256 1 := cmpf .olt main_v4 main_v5
  let main_c_1 : IVec S_ 1 := constantI S_ 1 1#1
  let main_v7 : IVec S_ 1 := (fun x v => Host.reduce IntOp.andi x v reducesTo_S2000x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_v13 main_v16
-- ==== Kernel.lean ====
abbrev S50000x2000 : Shape := ⟨2, ![50000, 2000]⟩
abbrev S2x800000 : Shape := ⟨2, ![2, 800000]⟩
abbrev S2000x256 : Shape := ⟨2, ![2000, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S1000x2000 : Shape := ⟨2, ![1000, 2000]⟩
abbrev S1000x256 : Shape := ⟨2, ![1000, 256]⟩
abbrev S850000x256 : Shape := ⟨2, ![850000, 256]⟩
abbrev S1x256 : Shape := ⟨2, ![1, 256]⟩
abbrev S256x128 : Shape := ⟨2, ![256, 128]⟩
abbrev S50000x128 : Shape := ⟨2, ![50000, 128]⟩
abbrev S2000x128 : Shape := ⟨2, ![2000, 128]⟩
abbrev S850000x128 : Shape := ⟨2, ![850000, 128]⟩
abbrev S50000x64 : Shape := ⟨2, ![50000, 64]⟩
abbrev S1x64 : Shape := ⟨2, ![1, 64]⟩

abbrev nBuf : Space → Nat
  | .hbm => 99
  | .vmem => 10
  | .smem => 0
  | _ => 0

abbrev bufTy : (tb : Table) → Fin (tcTables nBuf tb) → BufTy
  | .hbm, ⟨0, _⟩ => ⟨S50000x2000, .f32⟩
  | .hbm, ⟨1, _⟩ => ⟨S2x800000, .i32⟩
  | .hbm, ⟨2, _⟩ => ⟨S2000x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S256x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S2000x256, .bf16⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S256x128, .f32⟩
  | .hbm, ⟨73, _⟩ => ⟨S256x128, .bf16⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S50000x64, .f32⟩
  | .hbm, ⟨92, _⟩ => ⟨S1x64, .f32⟩
  | .hbm, ⟨93, _⟩ => ⟨S50000x64, .f32⟩
  | .hbm, ⟨94, _⟩ => ⟨S50000x64, .f32⟩
  | .hbm, ⟨95, _⟩ => ⟨S50000x64, .f32⟩
  | .hbm, ⟨96, _⟩ => ⟨S1x64, .f32⟩
  | .hbm, ⟨97, _⟩ => ⟨S50000x64, .f32⟩
  | .hbm, ⟨98, _⟩ => ⟨S50000x64, .f32⟩
  | .local _ .vmem, ⟨0, _⟩ => ⟨S1000x2000, .f32⟩
  | .local _ .vmem, ⟨1, _⟩ => ⟨S1000x2000, .f32⟩
  | .local _ .vmem, ⟨2, _⟩ => ⟨S2000x256, .bf16⟩
  | .local _ .vmem, ⟨3, _⟩ => ⟨S1000x256, .f32⟩
  | .local _ .vmem, ⟨4, _⟩ => ⟨S1000x256, .f32⟩
  | .local _ .vmem, ⟨5, _⟩ => ⟨S2000x256, .f32⟩
  | .local _ .vmem, ⟨6, _⟩ => ⟨S2000x256, .f32⟩
  | .local _ .vmem, ⟨7, _⟩ => ⟨S256x128, .bf16⟩
  | .local _ .vmem, ⟨8, _⟩ => ⟨S2000x128, .f32⟩
  | .local _ .vmem, ⟨9, _⟩ => ⟨S2000x128, .f32⟩
  | _, _ => ⟨S50000x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S1000x2000_S1000x2000_0_0 : ∀ a, (![0, 0] : Fin 2 → Nat) a + S1000x2000.size a ≤ S1000x2000.size a
  h_S1000x2000 : 0 < S1000x2000.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1000x256_S1000x256_0_0 : ∀ a, (![0, 0] : Fin 2 → Nat) a + S1000x256.size a ≤ S1000x256.size a
  h_S1000x256 : 0 < S1000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  concatenates_S256x64_S256x64_S256x128_d1 : Shape.Concatenates [S256x64, S256x64] S256x128 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S50000x128_S50000x64_0_0 : S50000x128.Slices ![0, 0] S50000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S50000x128_S50000x64_0_64 : S50000x128.Slices ![0, 64] S50000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x2000_S2000x256_S1000x256_1_0_0_1_n_n_wf : DotDims.WF S1000x2000 S2000x256 S1000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2000.size a ≤ S50000x2000.size a
  hwx0_0 : ∀ i : grid0.Coords, EltTy.bits .f32 = 32 ∨ (Rect.block (s := S50000x2000) S1000x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S2000x256.size a
  hwx0_1 : ∀ i : grid0.Coords, EltTy.bits .bf16 = 32 ∨ (Rect.block (s := S2000x256) S2000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x2000_S2000x256_S1000x256_1_0_0_1_n_n : DotDims S1000x2000 S2000x256 S1000x256 where
  lhsContracting := [1]
  rhsContracting := [0]
  lhsNonContracting := [0]
  rhsNonContracting := [1]
  lhsBatch := []
  rhsBatch := []
  wf := dot_S1000x2000_S2000x256_S1000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S1000x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S2000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x2000 : Shape := ⟨2, ![50000, 2000]⟩
abbrev S2x800000 : Shape := ⟨2, ![2, 800000]⟩
abbrev S2000x256 : Shape := ⟨2, ![2000, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S50000x2000, .f32⟩
  | .hbm, ⟨1, _⟩ => ⟨S2x800000, .i32⟩
  | .hbm, ⟨2, _⟩ => ⟨S2000x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S256x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x1, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x64, .f32⟩
  | .hbm, ⟨101, _⟩ => ⟨S850000x1, .f32⟩
  | .hbm, ⟨102, _⟩ => ⟨S850000x64, .f32⟩
  | .hbm, ⟨103, _⟩ => ⟨S850000x64, .f32⟩
  | .hbm, ⟨104, _⟩ => ⟨S_, .f32⟩
  | .hbm, ⟨105, _⟩ => ⟨S50000x64, .f32⟩
  | .hbm, ⟨106, _⟩ => ⟨S850000x1, .i32⟩
  | .hbm, ⟨107, _⟩ => ⟨S50000x64, .f32⟩
  | .hbm, ⟨108, _⟩ => ⟨S1x64, .f32⟩
  | .hbm, ⟨109, _⟩ => ⟨S50000x64, .f32⟩
  | .hbm, ⟨110, _⟩ => ⟨S50000x64, .f32⟩
  | _, _ => ⟨S50000x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x2000_S2000x256_S50000x256_1_0_0_1_n_n_wf : DotDims.WF S50000x2000 S2000x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x2000_S2000x256_S50000x256_1_0_0_1_n_n : DotDims S50000x2000 S2000x256 S50000x256 where
  lhsContracting := [1]
  rhsContracting := [0]
  lhsNonContracting := [0]
  rhsNonContracting := [1]
  lhsBatch := []
  rhsBatch := []
  wf := dot_S50000x2000_S2000x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.GcnSpec.lean ====
/-
  The graph-convolution encoder, as pure functions of the argument arrays at the exact-real reading.

  With `e` the 2×800000 edge list, the 850000 message sources `src e` (resp. targets `dst e`) are row 0
  (resp. row 1) of `e` followed by the 50000 self loops 0, 1, …, 49999.  `deg e` counts, per node, the messages
  that target it; `dinv e` is `deg^(-1/2)` where the degree is positive and 0 elsewhere; the weight of message
  `j` is `nrm e j = dinv (src j) · dinv (dst j)`.  One aggregation step sends a node-by-column array `P` to
  `agg e P`, whose row `r` is the sum over the messages `j` that target `r` of `nrm j · P (src j, ·)`: it acts on
  every column by itself.  The hidden layer is `hid e P b = max (agg e P + b) 0` and an output head is
  `out64 e Q b = agg e Q + b`.  The aggregation is stated at 256, 128 and 64 columns.
-/
import proofs.«137330_j61710090109081_1_alg».proof.Proof.Gen.KernelIdeal
import proofs.«137330_j61710090109081_1_alg».proof.Proof.Gen.ReferenceIdeal
import Idealize.ShloMosaic.PureOps.Ideal
import Idealize.ShloMosaic.Lib.ValueIdx

noncomputable section

namespace Cert.Gcn

open Idealize.ShloMosaic Cert.ReferenceIdeal Cert.ReferenceIdeal.Gen

/-- The message sources: row 0 of the edge list, then the self loops. -/
def src (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The message targets: row 1 of the edge list, then the self loops. -/
def dst (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- Node numbers as a one-column index array, as they stand. -/
def col (v : IVec S850000 32) : IVec S850000x1 32 :=
  broadcastInDim S850000x1 ![0] bcast_S850000_S850000x1_0 v

/-- Node numbers as a one-column index array, a negative number counted from the end (50000 added). -/
def rowOf (v : IVec S850000 32) : IVec S850000x1 32 :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- The number of messages that target each node. -/
def deg (e : IVec S2x800000 32) : FVec Ideal S50000 .f32 :=
  Host.scatterAdd scatter_S50000_S850000x1_S850000_n_0_0_1 (broadcastInDim S50000 ![] bcast_S_S50000 (constant S_ .f32 0x00000000#32)) (col (dst e)) (broadcastInDim S850000 ![] bcast_S_S850000 (constant S_ .f32 0x3F800000#32))

/-- `deg^(-1/2)` where the degree is positive, 0 elsewhere. -/
def dinv (e : IVec S2x800000 32) : FVec Ideal S50000 .f32 :=
  select (cmpf .ogt (deg e) (broadcastInDim S50000 ![] bcast_S_S50000 (constant S_ .f32 0x00000000#32))) (Host.rsqrt (deg e)) (broadcastInDim S50000 ![] bcast_S_S50000 (id (constant S_ .f32 0x00000000#32)))

/-- The weight of each message: `dinv` at its source times `dinv` at its target. -/
def nrm (e : IVec S2x800000 32) : FVec Ideal S850000 .f32 :=
  mulf (Host.gather gather_S50000_S850000x1_S850000_n_0_n_n_0_1_1 (dinv e) (rowOf (src e))) (Host.gather gather_S50000_S850000x1_S850000_n_0_n_n_0_1_1 (dinv e) (rowOf (dst e)))

/-- One aggregation step on 256 columns. -/
def agg256 (e : IVec S2x800000 32) (P : FVec Ideal S50000x256 .f32) : FVec Ideal S50000x256 .f32 :=
  Host.scatterAdd scatter_S50000x256_S850000x1_S850000x256_1_0_0_1 (broadcastInDim S50000x256 ![] bcast_S_S50000x256 (constant S_ .f32 0x00000000#32)) (col (dst e)) (mulf (Host.gather gather_S50000x256_S850000x1_S850000x256_1_0_n_n_0_1_1256 P (rowOf (src e))) (broadcastInDim S850000x256 ![0, 1] bcast_S850000x1_S850000x256_0_1 (broadcastInDim S850000x1 ![0] bcast_S850000_S850000x1_0 (nrm e))))

/-- The hidden layer: aggregate, add the bias along the rows, clamp below at 0. -/
def hid (e : IVec S2x800000 32) (P : FVec Ideal S50000x256 .f32) (b : FVec Ideal S256 .f32) : FVec Ideal S50000x256 .f32 :=
  maximumf (addf (agg256 e P) (broadcastInDim S50000x256 ![0, 1] bcast_S1x256_S50000x256_0_1 (broadcastInDim S1x256 ![1] bcast_S256_S1x256_1 b))) (broadcastInDim S50000x256 ![] bcast_S_S50000x256 (constant S_ .f32 0x00000000#32))

/-- One aggregation step on 64 columns. -/
def agg64 (e : IVec S2x800000 32) (Q : FVec Ideal S50000x64 .f32) : FVec Ideal S50000x64 .f32 :=
  Host.scatterAdd scatter_S50000x64_S850000x1_S850000x64_1_0_0_1 (broadcastInDim S50000x64 ![] bcast_S_S50000x64 (constant S_ .f32 0x00000000#32)) (col (dst e)) (mulf (Host.gather gather_S50000x64_S850000x1_S850000x64_1_0_n_n_0_1_164 Q (rowOf (src e))) (broadcastInDim S850000x64 ![0, 1] bcast_S850000x1_S850000x64_0_1 (broadcastInDim S850000x1 ![0] bcast_S850000_S850000x1_0 (nrm e))))

/-- An output head: aggregate and add the bias along the rows. -/
def out64 (e : IVec S2x800000 32) (Q : FVec Ideal S50000x64 .f32) (b : FVec Ideal S64 .f32) : FVec Ideal S50000x64 .f32 :=
  addf (agg64 e Q) (broadcastInDim S50000x64 ![0, 1] bcast_S1x64_S50000x64_0_1 (broadcastInDim S1x64 ![1] bcast_S64_S1x64_1 b))

/-- One aggregation step on 128 columns. -/
def agg128 (e : IVec S2x800000 32) (Q : FVec Ideal Cert.KernelIdeal.S50000x128 .f32) : FVec Ideal Cert.KernelIdeal.S50000x128 .f32 :=
  Host.scatterAdd Cert.KernelIdeal.scatter_S50000x128_S850000x1_S850000x128_1_0_0_1 (broadcastInDim Cert.KernelIdeal.S50000x128 ![] Cert.KernelIdeal.Gen.bcast_S_S50000x128 (constant S_ .f32 0x00000000#32)) (col (dst e)) (mulf (Host.gather Cert.KernelIdeal.gather_S50000x128_S850000x1_S850000x128_1_0_n_n_0_1_1128 Q (rowOf (src e))) (broadcastInDim Cert.KernelIdeal.S850000x128 ![0, 1] Cert.KernelIdeal.Gen.bcast_S850000x1_S850000x128_0_1 (broadcastInDim S850000x1 ![0] bcast_S850000_S850000x1_0 (nrm e))))

/-- Two 256×64 weight matrices side by side: columns 0–63 the first, columns 64–127 the second. -/
def wcat (a b : FVec Ideal S256x64 .f32) : FVec Ideal Cert.KernelIdeal.S256x128 .f32 :=
  concatenate Cert.KernelIdeal.S256x128 1 [⟨S256x64, a⟩, ⟨S256x64, b⟩] Cert.KernelIdeal.Gen.concatenates_S256x64_S256x64_S256x128_d1

/-- The product of an M×K and a K×N array, entry by entry: entry (r, j) is the sum over k of x (r, k) · w (k, j). -/
def mm {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ValueIdx.ix2 ⟨(i 0).val, ValueIdx.idx2_lt0 i⟩ k) * w (ValueIdx.ix2 k ⟨(i 1).val, ValueIdx.idx2_lt1 i⟩)

end Cert.Gcn

end
-- ==== Proof.KernelStretch.lean ====
/-
  What each run of host operations of the kernel program computes, for ANY contents `V` of the buffers before it.
  Before the first matmul region: the message sources and targets, the message weights and the first weight matrix
  re-typed for the matrix unit (a change of float format: nothing at the exact-real reading).  Between the regions:
  the hidden layer from the first product, and the two head matrices side by side, re-typed.  After the second region:
  the aggregation of the 128-column product, cut at column 64, each half plus its bias.  A buffer no operation of a
  run writes keeps its contents.
-/
import proofs.«137330_j61710090109081_1_alg».proof.Proof.Gen.KernelIdeal.Frame
import proofs.«137330_j61710090109081_1_alg».proof.Proof.GcnSpec

set_option maxRecDepth 16384

noncomputable section

namespace Cert.KernelIdeal.GcnStretch

open Idealize.ShloMosaic Idealize.ShloMosaic.TcCoe Idealize.SL.Sem Idealize.ShloMosaic.StableHlo Cert.KernelIdeal Cert.KernelIdeal.Gen

/-- Two pieces joined along an axis, the pieces as plain arguments. -/
def cat2 {α : Type} (t : Shape) (ax : Fin t.rank) (s₁ s₂ : Shape) (h : Shape.Concatenates [s₁, s₂] t ax)
    (a : s₁.Idx → α) (b : s₂.Idx → α) : t.Idx → α :=
  concatenate t ax [⟨s₁, a⟩, ⟨s₂, b⟩] h

theorem concatenate_pair {α : Type} (t : Shape) (ax : Fin t.rank) (s₁ s₂ : Shape) (h : Shape.Concatenates [s₁, s₂] t ax)
    (a : s₁.Idx → α) (b : s₂.Idx → α) : concatenate t ax [⟨s₁, a⟩, ⟨s₂, b⟩] h = cat2 t ax s₁ s₂ h a b := rfl

/-- The contents after a run of host operations, read at a buffer: one pass that rewrites each operation's result at
    its own buffer to its function's value and at any other buffer to what was there, entering the pieces of a
    two-piece concatenation. -/
macro "read_after" : tactic =>
  `(tactic| (simp (disch := decide) only [after_cons, after_nil, concatenate_pair,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

variable (V : Valuation τ sig (Elt Ideal))

/-! ## Before the first region

The weights of the messages pass through the degree's test `deg > 0`, which the program makes in an outlined
function: the chain is read in three steps, cut where that function begins and ends. -/

theorem src_first : StableHlo.after hostOps0 V (Proc.devRef .tc main_v3) = Cert.Gcn.src (V (Proc.devRef .tc main_arg1)) := by
  dsimp only [hostOps0]; read_after
  rfl
theorem dst_first : StableHlo.after hostOps0 V (Proc.devRef .tc main_v6) = Cert.Gcn.dst (V (Proc.devRef .tc main_arg1)) := by
  dsimp only [hostOps0]; read_after
  rfl
theorem degpos_first : StableHlo.after hostOps0 V (Proc.devRef .tc main_v12) = cmpf .ogt (Cert.Gcn.deg (V (Proc.devRef .tc main_arg1))) (broadcastInDim S50000 ![] bcast_S_S50000 (constant S_ .f32 0x00000000#32)) := by
  dsimp only [hostOps0]; read_after
  rfl
theorem degrsqrt_first : StableHlo.after hostOps0 V (Proc.devRef .tc main_v13) = Host.rsqrt (Cert.Gcn.deg (V (Proc.devRef .tc main_arg1))) := by
  dsimp only [hostOps0]; read_after
  rfl
theorem zero_first : StableHlo.after hostOps0 V (Proc.devRef .tc main_cst_2) = (constant S_ .f32 0x00000000#32 : FVec Ideal S_ .f32) := by
  dsimp only [hostOps0]; read_after
/-- The outlined test: `deg^(-1/2)` where the test holds, the given constant elsewhere. -/
theorem dinv_where : StableHlo.after hostOps0_1 V (Proc.devRef .tc main_v14)
    = (select (V (Proc.devRef .tc main_v12)) (V (Proc.devRef .tc main_v13) : FVec Ideal S50000 .f32) (broadcastInDim S50000 ![] bcast_S_S50000 (id (V (Proc.devRef .tc main_cst_2) : FVec Ideal S_ .f32))) : FVec Ideal S50000 .f32) := by
  dsimp only [hostOps0_1]; read_after
  rfl
theorem src_where : StableHlo.after hostOps0_1 V (Proc.devRef .tc main_v3) = V (Proc.devRef .tc main_v3) := by
  dsimp only [hostOps0_1]; read_after
theorem dst_where : StableHlo.after hostOps0_1 V (Proc.devRef .tc main_v6) = V (Proc.devRef .tc main_v6) := by
  dsimp only [hostOps0_1]; read_after
theorem nrm_last : StableHlo.after hostOps0_2 V (Proc.devRef .tc main_v29)
    = (mulf (Host.gather gather_S50000_S850000x1_S850000_n_0_n_n_0_1_1 (V (Proc.devRef .tc main_v14) : FVec Ideal S50000 .f32) (Cert.Gcn.rowOf (V (Proc.devRef .tc main_v3)))) (Host.gather gather_S50000_S850000x1_S850000_n_0_n_n_0_1_1 (V (Proc.devRef .tc main_v14) : FVec Ideal S50000 .f32) (Cert.Gcn.rowOf (V (Proc.devRef .tc main_v6)))) : FVec Ideal S850000 .f32) := by
  dsimp only [hostOps0_2]; read_after
  rfl

theorem pre_src : StableHlo.after hostOps0_2 (StableHlo.after hostOps0_1 (StableHlo.after hostOps0 V)) (Proc.devRef .tc main_v3) = Cert.Gcn.src (V (Proc.devRef .tc main_arg1)) := by
  dsimp only [hostOps0, hostOps0_1, hostOps0_2]; read_after
  rfl
theorem pre_dst : StableHlo.after hostOps0_2 (StableHlo.after hostOps0_1 (StableHlo.after hostOps0 V)) (Proc.devRef .tc main_v6) = Cert.Gcn.dst (V (Proc.devRef .tc main_arg1)) := by
  dsimp only [hostOps0, hostOps0_1, hostOps0_2]; read_after
  rfl
theorem pre_nrm : StableHlo.after hostOps0_2 (StableHlo.after hostOps0_1 (StableHlo.after hostOps0 V)) (Proc.devRef .tc main_v29) = Cert.Gcn.nrm (V (Proc.devRef .tc main_arg1)) := by
  rw [nrm_last, dinv_where, src_where, dst_where, degpos_first, degrsqrt_first, zero_first, src_first, dst_first]
  rfl
theorem pre_w1 : StableHlo.after hostOps0_2 (StableHlo.after hostOps0_1 (StableHlo.after hostOps0 V)) (Proc.devRef .tc main_v30) = (truncf .bf16 (V (Proc.devRef .tc main_arg2) : FVec Ideal S2000x256 .f32) bitsLt_bf16_f32 : FVec Ideal S2000x256 .bf16) := by
  dsimp only [hostOps0, hostOps0_1, hostOps0_2]; read_after
theorem pre_keep_arg0 : StableHlo.after hostOps0_2 (StableHlo.after hostOps0_1 (StableHlo.after hostOps0 V)) (Proc.devRef .tc main_arg0) = V (Proc.devRef .tc main_arg0) := by
  dsimp only [hostOps0, hostOps0_1, hostOps0_2]; read_after
theorem pre_keep_arg3 : StableHlo.after hostOps0_2 (StableHlo.after hostOps0_1 (StableHlo.after hostOps0 V)) (Proc.devRef .tc main_arg3) = V (Proc.devRef .tc main_arg3) := by
  dsimp only [hostOps0, hostOps0_1, hostOps0_2]; read_after
theorem pre_keep_arg4 : StableHlo.after hostOps0_2 (StableHlo.after hostOps0_1 (StableHlo.after hostOps0 V)) (Proc.devRef .tc main_arg4) = V (Proc.devRef .tc main_arg4) := by
  dsimp only [hostOps0, hostOps0_1, hostOps0_2]; read_after
theorem pre_keep_arg5 : StableHlo.after hostOps0_2 (StableHlo.after hostOps0_1 (StableHlo.after hostOps0 V)) (Proc.devRef .tc main_arg5) = V (Proc.devRef .tc main_arg5) := by
  dsimp only [hostOps0, hostOps0_1, hostOps0_2]; read_after
theorem pre_keep_arg6 : StableHlo.after hostOps0_2 (StableHlo.after hostOps0_1 (StableHlo.after hostOps0 V)) (Proc.devRef .tc main_arg6) = V (Proc.devRef .tc main_arg6) := by
  dsimp only [hostOps0, hostOps0_1, hostOps0_2]; read_after
theorem pre_keep_arg7 : StableHlo.after hostOps0_2 (StableHlo.after hostOps0_1 (StableHlo.after hostOps0 V)) (Proc.devRef .tc main_arg7) = V (Proc.devRef .tc main_arg7) := by
  dsimp only [hostOps0, hostOps0_1, hostOps0_2]; read_after

/-! ## Between the regions

The hidden layer's clamp at 0 is an outlined function too: its chain is cut there. -/

theorem hid_first : StableHlo.after hostOps1 V (Proc.devRef .tc main_v47)
    = ((addf (Host.scatterAdd scatter_S50000x256_S850000x1_S850000x256_1_0_0_1 (broadcastInDim S50000x256 ![] bcast_S_S50000x256 (constant S_ .f32 0x00000000#32)) (Cert.Gcn.col (V (Proc.devRef .tc main_v6))) (mulf (Host.gather gather_S50000x256_S850000x1_S850000x256_1_0_n_n_0_1_1256 (V (Proc.devRef .tc main_v31) : FVec Ideal S50000x256 .f32) (Cert.Gcn.rowOf (V (Proc.devRef .tc main_v3)))) (broadcastInDim S850000x256 ![0, 1] bcast_S850000x1_S850000x256_0_1 (broadcastInDim S850000x1 ![0] bcast_S850000_S850000x1_0 (V (Proc.devRef .tc main_v29) : FVec Ideal S850000 .f32))))) (broadcastInDim S50000x256 ![0, 1] bcast_S1x256_S50000x256_0_1 (broadcastInDim S1x256 ![1] bcast_S256_S1x256_1 (V (Proc.devRef .tc main_arg3) : FVec Ideal S256 .f32)))) : FVec Ideal S50000x256 .f32) := by
  dsimp only [hostOps1]; read_after
  rfl
/-- The outlined clamp: the maximum with 0. -/
theorem hid_clamp : StableHlo.after hostOps1_1 V (Proc.devRef .tc main_v48)
    = (maximumf (V (Proc.devRef .tc main_v47) : FVec Ideal S50000x256 .f32) (broadcastInDim S50000x256 ![] bcast_S_S50000x256 (constant S_ .f32 0x00000000#32)) : FVec Ideal S50000x256 .f32) := by
  dsimp only [hostOps1_1]; read_after
  rfl
theorem hid_last : StableHlo.after hostOps1_2 V (Proc.devRef .tc main_v48) = V (Proc.devRef .tc main_v48) := by
  dsimp only [hostOps1_2]; read_after

/-- The hidden layer, from the first product `V main_v31`, the sources, targets and weights of the messages, and the bias. -/
theorem mid_hid : StableHlo.after hostOps1_2 (StableHlo.after hostOps1_1 (StableHlo.after hostOps1 V)) (Proc.devRef .tc main_v48)
    = (maximumf (addf (Host.scatterAdd scatter_S50000x256_S850000x1_S850000x256_1_0_0_1 (broadcastInDim S50000x256 ![] bcast_S_S50000x256 (constant S_ .f32 0x00000000#32)) (Cert.Gcn.col (V (Proc.devRef .tc main_v6))) (mulf (Host.gather gather_S50000x256_S850000x1_S850000x256_1_0_n_n_0_1_1256 (V (Proc.devRef .tc main_v31) : FVec Ideal S50000x256 .f32) (Cert.Gcn.rowOf (V (Proc.devRef .tc main_v3)))) (broadcastInDim S850000x256 ![0, 1] bcast_S850000x1_S850000x256_0_1 (broadcastInDim S850000x1 ![0] bcast_S850000_S850000x1_0 (V (Proc.devRef .tc main_v29) : FVec Ideal S850000 .f32))))) (broadcastInDim S50000x256 ![0, 1] bcast_S1x256_S50000x256_0_1 (broadcastInDim S1x256 ![1] bcast_S256_S1x256_1 (V (Proc.devRef .tc main_arg3) : FVec Ideal S256 .f32)))) (broadcastInDim S50000x256 ![] bcast_S_S50000x256 (constant S_ .f32 0x00000000#32)) : FVec Ideal S50000x256 .f32) := by
  rw [hid_last, hid_clamp, hid_first]
theorem mid_wcat : StableHlo.after hostOps1_2 (StableHlo.after hostOps1_1 (StableHlo.after hostOps1 V)) (Proc.devRef .tc main_v50) = (truncf .bf16 (Cert.Gcn.wcat (V (Proc.devRef .tc main_arg4)) (V (Proc.devRef .tc main_arg6))) bitsLt_bf16_f32 : FVec Ideal S256x128 .bf16) := by
  dsimp only [hostOps1, hostOps1_1, hostOps1_2]; read_after
  rfl
theorem mid_keep_v3 : StableHlo.after hostOps1_2 (StableHlo.after hostOps1_1 (StableHlo.after hostOps1 V)) (Proc.devRef .tc main_v3) = V (Proc.devRef .tc main_v3) := by
  dsimp only [hostOps1, hostOps1_1, hostOps1_2]; read_after
theorem mid_keep_v6 : StableHlo.after hostOps1_2 (StableHlo.after hostOps1_1 (StableHlo.after hostOps1 V)) (Proc.devRef .tc main_v6) = V (Proc.devRef .tc main_v6) := by
  dsimp only [hostOps1, hostOps1_1, hostOps1_2]; read_after
theorem mid_keep_v29 : StableHlo.after hostOps1_2 (StableHlo.after hostOps1_1 (StableHlo.after hostOps1 V)) (Proc.devRef .tc main_v29) = V (Proc.devRef .tc main_v29) := by
  dsimp only [hostOps1, hostOps1_1, hostOps1_2]; read_after
theorem mid_keep_arg5 : StableHlo.after hostOps1_2 (StableHlo.after hostOps1_1 (StableHlo.after hostOps1 V)) (Proc.devRef .tc main_arg5) = V (Proc.devRef .tc main_arg5) := by
  dsimp only [hostOps1, hostOps1_1, hostOps1_2]; read_after
theorem mid_keep_arg7 : StableHlo.after hostOps1_2 (StableHlo.after hostOps1_1 (StableHlo.after hostOps1 V)) (Proc.devRef .tc main_arg7) = V (Proc.devRef .tc main_arg7) := by
  dsimp only [hostOps1, hostOps1_1, hostOps1_2]; read_after

/-! ## After the second region -/

/-- The aggregation of a 128-column product, as a term of the sources, targets and weights of the messages. -/
def agg128At (s d : IVec S850000 32) (n : FVec Ideal S850000 .f32) (Q : FVec Ideal S50000x128 .f32) : FVec Ideal S50000x128 .f32 :=
  Host.scatterAdd scatter_S50000x128_S850000x1_S850000x128_1_0_0_1 (broadcastInDim S50000x128 ![] bcast_S_S50000x128 (constant S_ .f32 0x00000000#32)) (Cert.Gcn.col d) (mulf (Host.gather gather_S50000x128_S850000x1_S850000x128_1_0_n_n_0_1_1128 Q (Cert.Gcn.rowOf s)) (broadcastInDim S850000x128 ![0, 1] bcast_S850000x1_S850000x128_0_1 (broadcastInDim S850000x1 ![0] bcast_S850000_S850000x1_0 n)))

theorem post_mu : StableHlo.after hostOps2 V (Proc.devRef .tc main_v68)
    = (addf (extractStridedSlice S50000x64 ![0, 0] (agg128At (V (Proc.devRef .tc main_v3)) (V (Proc.devRef .tc main_v6)) (V (Proc.devRef .tc main_v29)) (V (Proc.devRef .tc main_v51))) slices_S50000x128_S50000x64_0_0) (broadcastInDim S50000x64 ![0, 1] bcast_S1x64_S50000x64_0_1 (broadcastInDim S1x64 ![1] bcast_S64_S1x64_1 (V (Proc.devRef .tc main_arg5) : FVec Ideal S64 .f32))) : FVec Ideal S50000x64 .f32) := by
  dsimp only [hostOps2]; read_after
  rfl
theorem post_var : StableHlo.after hostOps2 V (Proc.devRef .tc main_v72)
    = (addf (extractStridedSlice S50000x64 ![0, 64] (agg128At (V (Proc.devRef .tc main_v3)) (V (Proc.devRef .tc main_v6)) (V (Proc.devRef .tc main_v29)) (V (Proc.devRef .tc main_v51))) slices_S50000x128_S50000x64_0_64) (broadcastInDim S50000x64 ![0, 1] bcast_S1x64_S50000x64_0_1 (broadcastInDim S1x64 ![1] bcast_S64_S1x64_1 (V (Proc.devRef .tc main_arg7) : FVec Ideal S64 .f32))) : FVec Ideal S50000x64 .f32) := by
  dsimp only [hostOps2]; read_after
  rfl

end Cert.KernelIdeal.GcnStretch

end
-- ==== Proof.RegionValue.lean ====
/-
  What each of the two matrix-product regions leaves in its output array, as one function of the arrays the region
  finds when it is entered, at the exact-real reading.

  Region 0 walks the 50000 rows of its left operand in 50 blocks of 1000 rows; at every point the right operand is
  staged whole, and the block written back holds, at (p, q), the sum over k of (row 1000·t + p of the left operand at k)
  times (the right operand at (k, q)): rows 1000·t … 1000·t + 999 of the product of the two arrays. The 50 blocks
  tile the output, so it ends holding the product. Region 1 is the same with 25 blocks of 2000 rows.
-/
import proofs.«137330_j61710090109081_1_alg».proof.Proof.Gen.KernelIdeal.Frame
import proofs.«137330_j61710090109081_1_alg».proof.Proof.GcnSpec
import Idealize.ShloMosaic.Lib.Pipeline.Value
import Idealize.ShloMosaic.Lib.ValueIdx
import Idealize.ShloMosaic.PureOps.Ideal.Laws

set_option maxRecDepth 16384

noncomputable section

namespace Cert.KernelIdeal.GcnValue

open Idealize.ShloMosaic Idealize.ShloMosaic.TcCoe Idealize.ShloMosaic.ValueIdx Idealize.SL.Sem Cert.KernelIdeal Cert.KernelIdeal.Gen
open Idealize.ShloMosaic.Pipeline (Dat Cfg Window)

/-- The zero offsets of a whole-buffer access, as the constant function. -/
theorem zero_offsets : (![0, 0] : Fin 2 → Nat) = fun _ => 0 := funext fun a => by fin_cases a <;> rfl

/-! ## Region 0: the 1000-row blocks of a [50000, 2000] × [2000, 256] product -/

/-- The operand indices of the product's dimension numbers, coordinate by coordinate: the left operand is read at
    (output row, contraction index), the right operand at (contraction index, output column). -/
theorem dot0_lhs_row (i : S1000x256.Idx) (r : dot_S1000x2000_S2000x256_S1000x256_1_0_0_1_n_n.contr.Idx) :
    (dot_S1000x2000_S2000x256_S1000x256_1_0_0_1_n_n.lhsIdx i r 0).val = (i 0).val := by
  unfold DotDims.lhsIdx
  rw [dif_neg (show ¬(0 : Fin S1000x2000.rank) ∈ dot_S1000x2000_S2000x256_S1000x256_1_0_0_1_n_n.lhsBatch by decide),
    dif_pos (show (0 : Fin S1000x2000.rank) ∈ dot_S1000x2000_S2000x256_S1000x256_1_0_0_1_n_n.lhsNonContracting by decide)]
  rfl
theorem dot0_lhs_col (i : S1000x256.Idx) (r : dot_S1000x2000_S2000x256_S1000x256_1_0_0_1_n_n.contr.Idx) :
    (dot_S1000x2000_S2000x256_S1000x256_1_0_0_1_n_n.lhsIdx i r 1).val = (r ⟨0, by decide⟩).val :=
  dot_S1000x2000_S2000x256_S1000x256_1_0_0_1_n_n.lhsIdx_val_of_single rfl i r
theorem dot0_rhs_row (i : S1000x256.Idx) (r : dot_S1000x2000_S2000x256_S1000x256_1_0_0_1_n_n.contr.Idx) :
    (dot_S1000x2000_S2000x256_S1000x256_1_0_0_1_n_n.rhsIdx i r 0).val = (r ⟨0, by decide⟩).val :=
  dot_S1000x2000_S2000x256_S1000x256_1_0_0_1_n_n.rhsIdx_val_of_single rfl i r
theorem dot0_rhs_col (i : S1000x256.Idx) (r : dot_S1000x2000_S2000x256_S1000x256_1_0_0_1_n_n.contr.Idx) :
    (dot_S1000x2000_S2000x256_S1000x256_1_0_0_1_n_n.rhsIdx i r 1).val = (i 1).val := by
  unfold DotDims.rhsIdx
  rw [dif_neg (show ¬(1 : Fin S2000x256.rank) ∈ dot_S1000x2000_S2000x256_S1000x256_1_0_0_1_n_n.rhsBatch by decide),
    dif_pos (show (1 : Fin S2000x256.rank) ∈ dot_S1000x2000_S2000x256_S1000x256_1_0_0_1_n_n.rhsNonContracting by decide)]
  rfl

/-- Entry (p, q) of the block the body computes: the sum over k of the left block at (p, k) times the right operand
    at (k, q). The narrowing of the left block is the identity on extended reals, the right operand's cast keeps its
    shape, and the accumulator is the zero array. -/
theorem block0_entry (v0 : Vec Ideal S1000x2000 .f32) (v2 : Vec Ideal S2000x256 .bf16) (p : Fin 1000) (q : Fin 256) :
    k0_pay1 (F := Ideal) v0 v2 (ix2 p q) = ∑ k : Fin 2000, v0 (ix2 p k) * v2 (ix2 k q) := by
  unfold k0_pay1
  simp only [matmul]
  rw [Ideal.matmul_constant_zero_apply,
    ← Equiv.sum_comp (contrEquiv1 dot_S1000x2000_S2000x256_S1000x256_1_0_0_1_n_n 2000 rfl rfl).symm]
  refine Finset.sum_congr rfl fun k _ => ?_
  have hk := contrEquiv1_symm_val dot_S1000x2000_S2000x256_S1000x256_1_0_0_1_n_n 2000 rfl rfl k
  rw [shapeCast_self, truncf_apply]
  have el : dot_S1000x2000_S2000x256_S1000x256_1_0_0_1_n_n.lhsIdx (ix2 p q)
      ((contrEquiv1 dot_S1000x2000_S2000x256_S1000x256_1_0_0_1_n_n 2000 rfl rfl).symm k) = ix2 p k :=
    funext fun a => Fin.ext (by
      match a with
      | ⟨0, _⟩ => exact dot0_lhs_row _ _
      | ⟨1, _⟩ => exact (dot0_lhs_col _ _).trans hk)
  have er : dot_S1000x2000_S2000x256_S1000x256_1_0_0_1_n_n.rhsIdx (ix2 p q)
      ((contrEquiv1 dot_S1000x2000_S2000x256_S1000x256_1_0_0_1_n_n 2000 rfl rfl).symm k) = ix2 k q :=
    funext fun a => Fin.ext (by
      match a with
      | ⟨0, _⟩ => exact (dot0_rhs_row _ _).trans hk
      | ⟨1, _⟩ => exact dot0_rhs_col _ _)
  rw [el, er]

variable (V : (c : Dev nD) → (b : Ref sig .tc) → Buf (Elt Ideal) ((c : Thread nD τ).loc b))

/-- The block indices of the three windows at every point of the grid: the left operand and the output move down
    the rows with the point, on their one column of blocks; the right operand stays on its one block. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the output is some point's. -/
theorem block_onto0 : ∀ n : Fin 50, ∃ t : Fin cfg0.N, win0_2.index t (0 : Fin 2) = n.val ∧ win0_2.index t (1 : Fin 2) = 0 :=
  (by decide +kernel : ∀ n : Fin 50, ∃ t : Fin grid0.N, win0_2.index t (0 : Fin 2) = n.val ∧ win0_2.index t (1 : Fin 2) = 0)

/-- The left operand's block at point `t` is rows 1000·t … 1000·t + 999 of its array. -/
theorem left_block0 (c : Dev nD) (t : Fin cfg0.N) (y : S1000x2000.Idx) (i : S50000x2000.Idx)
    (h0 : (i 0).val = t.val * 1000 + (y 0).val) (h1 : (i 1).val = (y 1).val) :
    (iblk0 V c 0 t : Vec Ideal S1000x2000 .f32) y = (V c main_arg0 : S50000x2000.Idx → EReal) i := by
  obtain ⟨e0, e1, -⟩ := block_index0 t
  unfold iblk0
  rw [View.read_apply]
  show V c main_arg0 (((cfg0.win 0).blk t).view.emb y) = V c main_arg0 i
  congr 1
  funext a
  apply Fin.ext
  match a with
  | ⟨0, _⟩ => show win0_0.index t (0 : Fin 2) * 1000 + 1 * (y 0).val = (i 0).val; omega
  | ⟨1, _⟩ => show win0_0.index t (1 : Fin 2) * 2000 + 1 * (y 1).val = (i 1).val; omega

/-- The right operand's block at every point is its whole array. -/
theorem right_block0 (c : Dev nD) (t : Fin cfg0.N) (y : S2000x256.Idx) :
    (iblk0 V c 1 t : Vec Ideal S2000x256 .bf16) y = (V c main_v30 : S2000x256.Idx → EReal) y := by
  obtain ⟨-, -, e2, e3, -⟩ := block_index0 t
  unfold iblk0
  rw [View.read_apply]
  show V c main_v30 (((cfg0.win 1).blk t).view.emb y) = V c main_v30 y
  congr 1
  funext a
  apply Fin.ext
  match a with
  | ⟨0, _⟩ => show win0_1.index t (0 : Fin 2) * 2000 + 1 * (y 0).val = (y 0).val; omega
  | ⟨1, _⟩ => show win0_1.index t (1 : Fin 2) * 256 + 1 * (y 1).val = (y 1).val; omega

/-- The block computed from rows 1000·n … 1000·n + 999 of `A` and the whole of `W` is, entry by entry, those rows of
    the product of `A` and `W`. -/
theorem block0_value (A : S50000x2000.Idx → EReal) (W : S2000x256.Idx → EReal)
    (x0 : Vec Ideal S1000x2000 .f32) (x1 : Vec Ideal S2000x256 .bf16) (n : Nat)
    (h0 : ∀ (y : S1000x2000.Idx) (i : S50000x2000.Idx), (i 0).val = n * 1000 + (y 0).val → (i 1).val = (y 1).val → x0 y = A i)
    (h1 : ∀ y : S2000x256.Idx, x1 y = W y)
    (j : S1000x256.Idx) (i : S50000x256.Idx) (hi0 : (i 0).val = n * 1000 + (j 0).val) (hi1 : (i 1).val = (j 1).val) :
    k0_pay1 (F := Ideal) x0 x1 j = Cert.Gcn.mm A W i := by
  obtain ⟨p, q, rfl⟩ : ∃ (p : Fin 1000) (q : Fin 256), j = ix2 p q := ⟨j 0, j 1, eq_ix2 j⟩
  rw [block0_entry]
  show _ = ∑ k : Fin 2000, A (ix2 ⟨(i 0).val, idx2_lt0 i⟩ k) * W (ix2 k ⟨(i 1).val, idx2_lt1 i⟩)
  refine Finset.sum_congr rfl fun k _ => ?_
  rw [h0 (ix2 p k) (ix2 ⟨(i 0).val, idx2_lt0 i⟩ k) hi0 rfl, h1]
  have eq : (⟨(i 1).val, idx2_lt1 i⟩ : Fin 256) = q := Fin.ext hi1
  rw [eq]

/-- What point `t` writes back is block `t` of the product of the two arrays the region finds. -/
theorem written_back0 (c : Dev nD) (t : Fin cfg0.N) :
    (dat0 (F := Ideal) V c).flushed 2 t
      = ((cfg0.win 2).blk t).view.read (Elt Ideal) (Cert.Gcn.mm (V c main_arg0) (V c main_v30)) := by
  show (cfg0.win 2).cut (grid0.coords t) ((dat0 V c).after 2 t) = _
  rw [after0_2]
  unfold out0_2
  rw [View.canon_unit_zero zero_offsets]
  simp only [View.ld_unit_zero (S := S1000x2000) zero_offsets, View.ld_unit_zero (S := S2000x256) zero_offsets]
  obtain ⟨-, -, -, -, e4, e5⟩ := block_index0 t
  funext j
  refine block0_value (V c main_arg0) (V c main_v30) _ _ t.val (left_block0 V c t) (right_block0 V c t) j
    (((cfg0.win 2).blk t).view.emb j) ?_ ?_
  · show win0_2.index t (0 : Fin 2) * 1000 + 1 * (j 0).val = t.val * 1000 + (j 0).val; omega
  · show win0_2.index t (1 : Fin 2) * 256 + 1 * (j 1).val = (j 1).val; omega

/-- An index of the output is in point `t`'s block iff each coordinate is in the block's range on its axis. -/
theorem mem_block0 (t : Fin cfg0.N) (i : S50000x256.Idx) :
    i ∈ ((cfg0.win 2).blk t).view.set ↔ ∀ a : Fin 2, win0_2.index t a * S1000x256.size a ≤ (i a).val
      ∧ (i a).val < win0_2.index t a * S1000x256.size a + S1000x256.size a := by
  show i ∈ ((View.whole main_v31).slice (win0_2.rect t)).set ↔ _
  rw [View.set_slice_whole, Rect.mem_set_unit]
  exact Iff.rfl

/-- The 50 blocks tile the output: row `r` is in the block of the point whose block index is `r / 1000`. -/
theorem covered0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, q0, q1⟩ := block_onto0 ⟨(i 0).val / 1000, by omega⟩
  have q0' : win0_2.index t (0 : Fin 2) = (i 0).val / 1000 := q0
  refine ⟨t, flush0_2 t, ?_⟩
  rw [mem_block0]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 256 ≤ (i 1).val ∧ (i 1).val < win0_2.index t (1 : Fin 2) * 256 + 256
    omega

/-- THE OUTPUT OF REGION 0 after its 50 points: the product of the two arrays the region finds. -/
theorem region0_array (c : Dev nD) :
    (dat0 (F := Ideal) V c).arrAt 2 cfg0.N = Cert.Gcn.mm (V c main_arg0) (V c main_v30) :=
  (dat0 (F := Ideal) V c).arrAt_eq_of_cover 2 (Cert.Gcn.mm (V c main_arg0) (V c main_v30))
    (fun t _ => written_back0 V c t) covered0

/-! ## Region 1: the 2000-row blocks of a [50000, 256] × [256, 128] product -/

/-- The operand indices of the product's dimension numbers, coordinate by coordinate: the left operand is read at
    (output row, contraction index), the right operand at (contraction index, output column). -/
theorem dot1_lhs_row (i : S2000x128.Idx) (r : dot_S2000x256_S256x128_S2000x128_1_0_0_1_n_n.contr.Idx) :
    (dot_S2000x256_S256x128_S2000x128_1_0_0_1_n_n.lhsIdx i r 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl
theorem dot1_lhs_col (i : S2000x128.Idx) (r : dot_S2000x256_S256x128_S2000x128_1_0_0_1_n_n.contr.Idx) :
    (dot_S2000x256_S256x128_S2000x128_1_0_0_1_n_n.lhsIdx i r 1).val = (r ⟨0, by decide⟩).val :=
  dot_S2000x256_S256x128_S2000x128_1_0_0_1_n_n.lhsIdx_val_of_single rfl i r
theorem dot1_rhs_row (i : S2000x128.Idx) (r : dot_S2000x256_S256x128_S2000x128_1_0_0_1_n_n.contr.Idx) :
    (dot_S2000x256_S256x128_S2000x128_1_0_0_1_n_n.rhsIdx i r 0).val = (r ⟨0, by decide⟩).val :=
  dot_S2000x256_S256x128_S2000x128_1_0_0_1_n_n.rhsIdx_val_of_single rfl i r
theorem dot1_rhs_col (i : S2000x128.Idx) (r : dot_S2000x256_S256x128_S2000x128_1_0_0_1_n_n.contr.Idx) :
    (dot_S2000x256_S256x128_S2000x128_1_0_0_1_n_n.rhsIdx i r 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- Entry (p, q) of the block the body computes: the sum over k of the left block at (p, k) times the right operand
    at (k, q). Both operands' casts keep their shapes, the narrowing of the left block is the identity on extended
    reals, and the accumulator is the zero array. -/
theorem block1_entry (v0 : Vec Ideal S2000x256 .f32) (v3 : Vec Ideal S256x128 .bf16) (p : Fin 2000) (q : Fin 128) :
    k1_pay1 (F := Ideal) v0 v3 (ix2 p q) = ∑ k : Fin 256, v0 (ix2 p k) * v3 (ix2 k q) := by
  unfold k1_pay1
  simp only [matmul]
  rw [Ideal.matmul_constant_zero_apply,
    ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  rw [truncf_apply, shapeCast_self, shapeCast_self]
  have el : dot_S2000x256_S256x128_S2000x128_1_0_0_1_n_n.lhsIdx (ix2 p q)
      ((contrEquiv1 dot_S2000x256_S256x128_S2000x128_1_0_0_1_n_n 256 rfl rfl).symm k) = ix2 p k :=
    funext fun a => Fin.ext (by
      match a with
      | ⟨0, _⟩ => exact dot1_lhs_row _ _
      | ⟨1, _⟩ => exact (dot1_lhs_col _ _).trans hk)
  have er : dot_S2000x256_S256x128_S2000x128_1_0_0_1_n_n.rhsIdx (ix2 p q)
      ((contrEquiv1 dot_S2000x256_S256x128_S2000x128_1_0_0_1_n_n 256 rfl rfl).symm k) = ix2 k q :=
    funext fun a => Fin.ext (by
      match a with
      | ⟨0, _⟩ => exact (dot1_rhs_row _ _).trans hk
      | ⟨1, _⟩ => exact dot1_rhs_col _ _)
  rw [el, er]

/-- The block indices of the three windows at every point of the grid: the left operand and the output move down
    the rows with the point, on their one column of blocks; the right operand stays on its one block. -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block of the output is some point's. -/
theorem block_onto1 : ∀ n : Fin 25, ∃ t : Fin cfg1.N, win1_2.index t (0 : Fin 2) = n.val ∧ win1_2.index t (1 : Fin 2) = 0 :=
  (by decide +kernel : ∀ n : Fin 25, ∃ t : Fin grid1.N, win1_2.index t (0 : Fin 2) = n.val ∧ win1_2.index t (1 : Fin 2) = 0)

/-- The left operand's block at point `t` is rows 2000·t … 2000·t + 1999 of its array. -/
theorem left_block1 (c : Dev nD) (t : Fin cfg1.N) (y : S2000x256.Idx) (i : S50000x256.Idx)
    (h0 : (i 0).val = t.val * 2000 + (y 0).val) (h1 : (i 1).val = (y 1).val) :
    (iblk1 V c 0 t : Vec Ideal S2000x256 .f32) y = (V c main_v48 : S50000x256.Idx → EReal) i := by
  obtain ⟨e0, e1, -⟩ := block_index1 t
  unfold iblk1
  rw [View.read_apply]
  show V c main_v48 (((cfg1.win 0).blk t).view.emb y) = V c main_v48 i
  congr 1
  funext a
  apply Fin.ext
  match a with
  | ⟨0, _⟩ => show win1_0.index t (0 : Fin 2) * 2000 + 1 * (y 0).val = (i 0).val; omega
  | ⟨1, _⟩ => show win1_0.index t (1 : Fin 2) * 256 + 1 * (y 1).val = (i 1).val; omega

/-- The right operand's block at every point is its whole array. -/
theorem right_block1 (c : Dev nD) (t : Fin cfg1.N) (y : S256x128.Idx) :
    (iblk1 V c 1 t : Vec Ideal S256x128 .bf16) y = (V c main_v50 : S256x128.Idx → EReal) y := by
  obtain ⟨-, -, e2, e3, -⟩ := block_index1 t
  unfold iblk1
  rw [View.read_apply]
  show V c main_v50 (((cfg1.win 1).blk t).view.emb y) = V c main_v50 y
  congr 1
  funext a
  apply Fin.ext
  match a with
  | ⟨0, _⟩ => show win1_1.index t (0 : Fin 2) * 256 + 1 * (y 0).val = (y 0).val; omega
  | ⟨1, _⟩ => show win1_1.index t (1 : Fin 2) * 128 + 1 * (y 1).val = (y 1).val; omega

/-- The block computed from rows 2000·n … 2000·n + 1999 of `A` and the whole of `W` is, entry by entry, those rows of
    the product of `A` and `W`. -/
theorem block1_value (A : S50000x256.Idx → EReal) (W : S256x128.Idx → EReal)
    (x0 : Vec Ideal S2000x256 .f32) (x1 : Vec Ideal S256x128 .bf16) (n : Nat)
    (h0 : ∀ (y : S2000x256.Idx) (i : S50000x256.Idx), (i 0).val = n * 2000 + (y 0).val → (i 1).val = (y 1).val → x0 y = A i)
    (h1 : ∀ y : S256x128.Idx, x1 y = W y)
    (j : S2000x128.Idx) (i : S50000x128.Idx) (hi0 : (i 0).val = n * 2000 + (j 0).val) (hi1 : (i 1).val = (j 1).val) :
    k1_pay1 (F := Ideal) x0 x1 j = Cert.Gcn.mm A W i := by
  obtain ⟨p, q, rfl⟩ : ∃ (p : Fin 2000) (q : Fin 128), j = ix2 p q := ⟨j 0, j 1, eq_ix2 j⟩
  rw [block1_entry]
  show _ = ∑ k : Fin 256, A (ix2 ⟨(i 0).val, idx2_lt0 i⟩ k) * W (ix2 k ⟨(i 1).val, idx2_lt1 i⟩)
  refine Finset.sum_congr rfl fun k _ => ?_
  rw [h0 (ix2 p k) (ix2 ⟨(i 0).val, idx2_lt0 i⟩ k) hi0 rfl, h1]
  have eq : (⟨(i 1).val, idx2_lt1 i⟩ : Fin 128) = q := Fin.ext hi1
  rw [eq]

/-- What point `t` writes back is block `t` of the product of the two arrays the region finds. -/
theorem written_back1 (c : Dev nD) (t : Fin cfg1.N) :
    (dat1 (F := Ideal) V c).flushed 2 t
      = ((cfg1.win 2).blk t).view.read (Elt Ideal) (Cert.Gcn.mm (V c main_v48) (V c main_v50)) := by
  show (cfg1.win 2).cut (grid1.coords t) ((dat1 V c).after 2 t) = _
  rw [after1_2]
  unfold out1_2
  rw [View.canon_unit_zero zero_offsets]
  simp only [View.ld_unit_zero (S := S2000x256) zero_offsets, View.ld_unit_zero (S := S256x128) zero_offsets]
  obtain ⟨-, -, -, -, e4, e5⟩ := block_index1 t
  funext j
  refine block1_value (V c main_v48) (V c main_v50) _ _ t.val (left_block1 V c t) (right_block1 V c t) j
    (((cfg1.win 2).blk t).view.emb j) ?_ ?_
  · show win1_2.index t (0 : Fin 2) * 2000 + 1 * (j 0).val = t.val * 2000 + (j 0).val; omega
  · show win1_2.index t (1 : Fin 2) * 128 + 1 * (j 1).val = (j 1).val; omega

/-- An index of the output is in point `t`'s block iff each coordinate is in the block's range on its axis. -/
theorem mem_block1 (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v51).slice (win1_2.rect t)).set ↔ _
  rw [View.set_slice_whole, Rect.mem_set_unit]
  exact Iff.rfl

/-- The 25 blocks tile the output: row `r` is in the block of the point whose block index is `r / 2000`. -/
theorem covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, q0, q1⟩ := block_onto1 ⟨(i 0).val / 2000, by omega⟩
  have q0' : win1_2.index t (0 : Fin 2) = (i 0).val / 2000 := q0
  refine ⟨t, flush1_2 t, ?_⟩
  rw [mem_block1]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 128 ≤ (i 1).val ∧ (i 1).val < win1_2.index t (1 : Fin 2) * 128 + 128
    omega

/-- THE OUTPUT OF REGION 1 after its 25 points: the product of the two arrays the region finds. -/
theorem region1_array (c : Dev nD) :
    (dat1 (F := Ideal) V c).arrAt 2 cfg1.N = Cert.Gcn.mm (V c main_v48) (V c main_v50) :=
  (dat1 (F := Ideal) V c).arrAt_eq_of_cover 2 (Cert.Gcn.mm (V c main_v48) (V c main_v50))
    (fun t _ => written_back1 V c t) covered1

end Cert.KernelIdeal.GcnValue

end
-- ==== Proof.KernelValue.lean ====
/-
  The kernel program's two result arrays as terms of the shared definitions, read boundary by boundary from the
  launch memory.  With `x` the node features, `e` the edge list, `P = x · W1` the first region's product (the
  entry-by-entry product `mm`, the weights re-typed for the matrix unit) and `h = hid e P b1` the hidden layer, the
  second region leaves `h · [W_mu | W_var]` (128 columns), and the results are the aggregation of that product cut at
  column 64, each half plus its bias.
-/
import proofs.«137330_j61710090109081_1_alg».proof.Proof.KernelStretch
import proofs.«137330_j61710090109081_1_alg».proof.Proof.RegionValue

set_option maxRecDepth 16384

noncomputable section

namespace Cert.KernelIdeal.GcnWalk

open Idealize.ShloMosaic Idealize.ShloMosaic.TcCoe Idealize.SL.Sem Idealize.ShloMosaic.StableHlo Cert.KernelIdeal Cert.KernelIdeal.Gen
open Cert.KernelIdeal.GcnStretch Cert.KernelIdeal.GcnValue

variable (m : (ℓ : Loc nD τ sig) → Buf (Elt Ideal) ℓ) (ρ : Dev nD → PrngReg) (c : Dev nD)

/-- The first weights, re-typed for the matrix unit: the same numbers. -/
abbrev w1n : FVec Ideal S2000x256 .bf16 :=
  truncf .bf16 ((m ((c : Thread nD τ).loc main_arg2)) : FVec Ideal S2000x256 .f32) bitsLt_bf16_f32

/-- The two head matrices side by side, re-typed for the matrix unit: the same numbers. -/
abbrev wcn : FVec Ideal S256x128 .bf16 :=
  truncf .bf16 (Cert.Gcn.wcat (m ((c : Thread nD τ).loc main_arg4)) (m ((c : Thread nD τ).loc main_arg6))) bitsLt_bf16_f32

/-- The first region's product: the node features times the first weights. -/
abbrev prod1 : FVec Ideal S50000x256 .f32 :=
  Cert.Gcn.mm (m ((c : Thread nD τ).loc main_arg0)) (w1n m c)

/-- The hidden layer. -/
abbrev hidden : FVec Ideal S50000x256 .f32 :=
  Cert.Gcn.hid (m ((c : Thread nD τ).loc main_arg1)) (prod1 m c) (m ((c : Thread nD τ).loc main_arg3))

/-- The second region's product: the hidden layer times the two head matrices side by side. -/
abbrev prod2 : FVec Ideal S50000x128 .f32 :=
  Cert.Gcn.mm (hidden m c) (wcn m c)

/-! ## When the first region is entered -/

theorem src3 : W3 m ρ c (Proc.devRef .tc main_v3) = Cert.Gcn.src (m ((c : Thread nD τ).loc main_arg1)) := pre_src (W0 m ρ c)
theorem dst3 : W3 m ρ c (Proc.devRef .tc main_v6) = Cert.Gcn.dst (m ((c : Thread nD τ).loc main_arg1)) := pre_dst (W0 m ρ c)
theorem nrm3 : W3 m ρ c (Proc.devRef .tc main_v29) = Cert.Gcn.nrm (m ((c : Thread nD τ).loc main_arg1)) := pre_nrm (W0 m ρ c)
theorem w13 : W3 m ρ c (Proc.devRef .tc main_v30) = w1n m c := pre_w1 (W0 m ρ c)
theorem arg03 : W3 m ρ c (Proc.devRef .tc main_arg0) = (m ((c : Thread nD τ).loc main_arg0)) := pre_keep_arg0 (W0 m ρ c)
theorem arg33 : W3 m ρ c (Proc.devRef .tc main_arg3) = (m ((c : Thread nD τ).loc main_arg3)) := pre_keep_arg3 (W0 m ρ c)
theorem arg43 : W3 m ρ c (Proc.devRef .tc main_arg4) = (m ((c : Thread nD τ).loc main_arg4)) := pre_keep_arg4 (W0 m ρ c)
theorem arg53 : W3 m ρ c (Proc.devRef .tc main_arg5) = (m ((c : Thread nD τ).loc main_arg5)) := pre_keep_arg5 (W0 m ρ c)
theorem arg63 : W3 m ρ c (Proc.devRef .tc main_arg6) = (m ((c : Thread nD τ).loc main_arg6)) := pre_keep_arg6 (W0 m ρ c)
theorem arg73 : W3 m ρ c (Proc.devRef .tc main_arg7) = (m ((c : Thread nD τ).loc main_arg7)) := pre_keep_arg7 (W0 m ρ c)

/-! ## When the first region is left -/

theorem prod4 : W4 m ρ c (Proc.devRef .tc main_v31) = prod1 m c :=
  (W4_arr m ρ c 2).trans ((region0_array (V3 m ρ) c).trans (by
    rw [show V3 m ρ c main_arg0 = (m ((c : Thread nD τ).loc main_arg0)) from arg03 m ρ c, show V3 m ρ c main_v30 = w1n m c from w13 m ρ c]))
theorem src4 : W4 m ρ c (Proc.devRef .tc main_v3) = Cert.Gcn.src (m ((c : Thread nD τ).loc main_arg1)) := (W4_of_ne m ρ c main_v3 (by decide)).trans (src3 m ρ c)
theorem dst4 : W4 m ρ c (Proc.devRef .tc main_v6) = Cert.Gcn.dst (m ((c : Thread nD τ).loc main_arg1)) := (W4_of_ne m ρ c main_v6 (by decide)).trans (dst3 m ρ c)
theorem nrm4 : W4 m ρ c (Proc.devRef .tc main_v29) = Cert.Gcn.nrm (m ((c : Thread nD τ).loc main_arg1)) := (W4_of_ne m ρ c main_v29 (by decide)).trans (nrm3 m ρ c)
theorem arg34 : W4 m ρ c (Proc.devRef .tc main_arg3) = (m ((c : Thread nD τ).loc main_arg3)) := (W4_of_ne m ρ c main_arg3 (by decide)).trans (arg33 m ρ c)
theorem arg44 : W4 m ρ c (Proc.devRef .tc main_arg4) = (m ((c : Thread nD τ).loc main_arg4)) := (W4_of_ne m ρ c main_arg4 (by decide)).trans (arg43 m ρ c)
theorem arg54 : W4 m ρ c (Proc.devRef .tc main_arg5) = (m ((c : Thread nD τ).loc main_arg5)) := (W4_of_ne m ρ c main_arg5 (by decide)).trans (arg53 m ρ c)
theorem arg64 : W4 m ρ c (Proc.devRef .tc main_arg6) = (m ((c : Thread nD τ).loc main_arg6)) := (W4_of_ne m ρ c main_arg6 (by decide)).trans (arg63 m ρ c)
theorem arg74 : W4 m ρ c (Proc.devRef .tc main_arg7) = (m ((c : Thread nD τ).loc main_arg7)) := (W4_of_ne m ρ c main_arg7 (by decide)).trans (arg73 m ρ c)

/-! ## When the second region is entered -/

theorem hid7 : W7 m ρ c (Proc.devRef .tc main_v48) = hidden m c :=
  (mid_hid (W4 m ρ c)).trans (by rw [dst4, prod4, src4, nrm4, arg34]; rfl)
theorem wcat7 : W7 m ρ c (Proc.devRef .tc main_v50) = wcn m c :=
  (mid_wcat (W4 m ρ c)).trans (by rw [arg44, arg64])
theorem src7 : W7 m ρ c (Proc.devRef .tc main_v3) = Cert.Gcn.src (m ((c : Thread nD τ).loc main_arg1)) := (mid_keep_v3 (W4 m ρ c)).trans (src4 m ρ c)
theorem dst7 : W7 m ρ c (Proc.devRef .tc main_v6) = Cert.Gcn.dst (m ((c : Thread nD τ).loc main_arg1)) := (mid_keep_v6 (W4 m ρ c)).trans (dst4 m ρ c)
theorem nrm7 : W7 m ρ c (Proc.devRef .tc main_v29) = Cert.Gcn.nrm (m ((c : Thread nD τ).loc main_arg1)) := (mid_keep_v29 (W4 m ρ c)).trans (nrm4 m ρ c)
theorem arg57 : W7 m ρ c (Proc.devRef .tc main_arg5) = (m ((c : Thread nD τ).loc main_arg5)) := (mid_keep_arg5 (W4 m ρ c)).trans (arg54 m ρ c)
theorem arg77 : W7 m ρ c (Proc.devRef .tc main_arg7) = (m ((c : Thread nD τ).loc main_arg7)) := (mid_keep_arg7 (W4 m ρ c)).trans (arg74 m ρ c)

/-! ## When the second region is left -/

theorem prod8 : W8 m ρ c (Proc.devRef .tc main_v51) = prod2 m c :=
  (W8_arr m ρ c 2).trans ((region1_array (V7 m ρ) c).trans (by
    rw [show V7 m ρ c main_v48 = hidden m c from hid7 m ρ c, show V7 m ρ c main_v50 = wcn m c from wcat7 m ρ c]))
theorem src8 : W8 m ρ c (Proc.devRef .tc main_v3) = Cert.Gcn.src (m ((c : Thread nD τ).loc main_arg1)) := (W8_of_ne m ρ c main_v3 (by decide)).trans (src7 m ρ c)
theorem dst8 : W8 m ρ c (Proc.devRef .tc main_v6) = Cert.Gcn.dst (m ((c : Thread nD τ).loc main_arg1)) := (W8_of_ne m ρ c main_v6 (by decide)).trans (dst7 m ρ c)
theorem nrm8 : W8 m ρ c (Proc.devRef .tc main_v29) = Cert.Gcn.nrm (m ((c : Thread nD τ).loc main_arg1)) := (W8_of_ne m ρ c main_v29 (by decide)).trans (nrm7 m ρ c)
theorem arg58 : W8 m ρ c (Proc.devRef .tc main_arg5) = (m ((c : Thread nD τ).loc main_arg5)) := (W8_of_ne m ρ c main_arg5 (by decide)).trans (arg57 m ρ c)
theorem arg78 : W8 m ρ c (Proc.devRef .tc main_arg7) = (m ((c : Thread nD τ).loc main_arg7)) := (W8_of_ne m ρ c main_arg7 (by decide)).trans (arg77 m ρ c)

/-! ## The results -/

/-- The first result: columns 0–63 of the aggregated 128-column product, plus the first head's bias. -/
theorem out_mu : W9 m ρ c (Proc.devRef .tc main_v68)
    = addf (extractStridedSlice S50000x64 ![0, 0] (Cert.Gcn.agg128 (m ((c : Thread nD τ).loc main_arg1)) (prod2 m c)) slices_S50000x128_S50000x64_0_0)
        (broadcastInDim S50000x64 ![0, 1] bcast_S1x64_S50000x64_0_1 (broadcastInDim S1x64 ![1] bcast_S64_S1x64_1 (m ((c : Thread nD τ).loc main_arg5)))) :=
  (post_mu (W8 m ρ c)).trans (by rw [src8, dst8, nrm8, prod8, arg58]; rfl)

/-- The second result: columns 64–127 of the aggregated 128-column product, plus the second head's bias. -/
theorem out_var : W9 m ρ c (Proc.devRef .tc main_v72)
    = addf (extractStridedSlice S50000x64 ![0, 64] (Cert.Gcn.agg128 (m ((c : Thread nD τ).loc main_arg1)) (prod2 m c)) slices_S50000x128_S50000x64_0_64)
        (broadcastInDim S50000x64 ![0, 1] bcast_S1x64_S50000x64_0_1 (broadcastInDim S1x64 ![1] bcast_S64_S1x64_1 (m ((c : Thread nD τ).loc main_arg7)))) :=
  (post_var (W8 m ρ c)).trans (by rw [src8, dst8, nrm8, prod8, arg78]; rfl)

end Cert.KernelIdeal.GcnWalk

end
-- ==== Proof.RefValue.lean ====
/-
  The reference program's two results as terms of the shared definitions: with `e` the edge list, `x` the node
  features and `h = hid e (x · W1) b1` the hidden layer, the first result is `out64 e (h · W_mu) b_mu` and the second
  `out64 e (h · W_var) b_var`, the products the host's dot_general.  The run's composed terms are these by unfolding
  the definitions.
-/
import proofs.«137330_j61710090109081_1_alg».proof.Proof.RefRun
import proofs.«137330_j61710090109081_1_alg».proof.Proof.GcnSpec

set_option maxRecDepth 16384

noncomputable section

namespace Cert.ReferenceIdeal.GcnRef

open Idealize.ShloMosaic Idealize.ShloMosaic.TcCoe Idealize.SL.Sem Cert.ReferenceIdeal Cert.ReferenceIdeal.Gen

/-- An output head of the encoder as a function of the argument arrays: the hidden layer from the features, the edge
    list, the first weights and bias; then one more aggregation of its product with the head's weights, plus the
    head's bias. -/
def head (x : FVec Ideal S50000x2000 .f32) (e : IVec S2x800000 32) (w1 : FVec Ideal S2000x256 .f32) (b1 : FVec Ideal S256 .f32)
    (w : FVec Ideal S256x64 .f32) (b : FVec Ideal S64 .f32) : FVec Ideal S50000x64 .f32 :=
  Cert.Gcn.out64 e (Host.dotGeneral dot_S50000x256_S256x64_S50000x64_1_0_0_1_n_n none
    (Cert.Gcn.hid e (Host.dotGeneral dot_S50000x2000_S2000x256_S50000x256_1_0_0_1_n_n none x w1) b1) w) b

variable (m : (ℓ : Loc nD τ sig) → Buf (Elt Ideal) ℓ) (c : Dev nD)

set_option maxHeartbeats 2000000 in
/-- The first result's composed term is the first head (weights `W_mu`, bias `b_mu`). -/
theorem res_mu : RunP.res_main_v64 (F := Ideal) m c
    = head (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold RunP.res_main_v64 head Cert.Gcn.out64 Cert.Gcn.agg64 Cert.Gcn.hid Cert.Gcn.agg256 Cert.Gcn.nrm Cert.Gcn.dinv Cert.Gcn.deg Cert.Gcn.col Cert.Gcn.rowOf Cert.Gcn.src Cert.Gcn.dst
  rfl

set_option maxHeartbeats 2000000 in
/-- The second result's composed term is the second head (weights `W_var`, bias `b_var`). -/
theorem res_var : RunP.res_main_v81 (F := Ideal) m c
    = head (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg6)) (m ((c.tc : Thread nD τ).loc main_arg7)) := by
  unfold RunP.res_main_v81 head Cert.Gcn.out64 Cert.Gcn.agg64 Cert.Gcn.hid Cert.Gcn.agg256 Cert.Gcn.nrm Cert.Gcn.dinv Cert.Gcn.deg Cert.Gcn.col Cert.Gcn.rowOf Cert.Gcn.src Cert.Gcn.dst
  rfl

end Cert.ReferenceIdeal.GcnRef

end
-- ==== Proof.AggSlice.lean ====
import proofs.«137330_j61710090109081_1_alg».proof.Proof.GcnSpec
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.ValueIdx Cert.ReferenceIdeal Cert.ReferenceIdeal.Gen

/-! ## Where a message lands and which row it reads

A one-column array of node numbers `idx` drives both halves of an aggregation step.  Scattering along rows, message `j`
lands on row `idx (j, 0)` read as a signed integer when that is one of the 50000 rows, and is dropped otherwise;
gathering along rows, message `j` reads row `idx (j, 0)` read signed and clamped into `[0, 49999]`.  Neither depends on
the number of columns of the array that is aggregated, and a message keeps its column. -/

/-- The row on which message `j` lands: its node number read signed, when that is a row; nothing otherwise. -/
def land (idx : IVec S850000x1 32) (j : Fin 850000) : Option (Fin 50000) :=
  if h : 0 ≤ (idx (ix2 j (0 : Fin 1))).toInt ∧ (idx (ix2 j (0 : Fin 1))).toInt < 50000 then
    some ⟨(idx (ix2 j (0 : Fin 1))).toInt.toNat, by omega⟩
  else none

/-- The row message `j` reads: its node number read signed and clamped into `[0, 49999]`. -/
def pick (idx : IVec S850000x1 32) (j : Fin 850000) : Fin 50000 :=
  ⟨min (idx (ix2 j (0 : Fin 1))).toInt.toNat 49999, by omega⟩

/-- Two rank-2 indices are equal exactly when their coordinates are. -/
theorem ix2_eq_iff {n0 n1 : Nat} (a a' : Fin n0) (b b' : Fin n1) : ix2 a b = ix2 a' b' ↔ a = a' ∧ b = b' :=
  ⟨fun h => ⟨congrFun h 0, congrFun h 1⟩, fun h => by rw [h.1, h.2]⟩

/-- The dimension numbers of a scatter along rows into a 50000-row array of `C` columns, one node number per message:
    the updates' axis 1 is the window, the operand's axis 0 is inserted and is the one the node number addresses. -/
abbrev rowScatter (C : Nat) (wf : ScatterDims.WF ⟨2, ![50000, C]⟩ ⟨2, ![850000, 1]⟩ ⟨2, ![850000, C]⟩ [1] [0] [0] 1) :
    ScatterDims ⟨2, ![50000, C]⟩ ⟨2, ![850000, 1]⟩ ⟨2, ![850000, C]⟩ where
  updateWindowDims := [1]
  insertedWindowDims := [0]
  scatterDimsToOperandDims := [0]
  indexVectorDim := 1
  wf := wf

/-- Update entry `(j, c)` of a scatter along rows lands at `(land idx j, c)`. -/
theorem rowScatter_resultIdx {C : Nat} (wf : ScatterDims.WF ⟨2, ![50000, C]⟩ ⟨2, ![850000, 1]⟩ ⟨2, ![850000, C]⟩ [1] [0] [0] 1)
    (idx : IVec S850000x1 32) (j : Fin 850000) (c : Fin C) :
    (rowScatter C wf).resultIdx? (ix2 j c) idx = (land idx j).map (fun r => ix2 r c) := by
  have hs0 : (rowScatter C wf).start (ix2 j c) idx 0 = (idx (ix2 j (0 : Fin 1))).toInt := by
    unfold ScatterDims.start
    rw [dif_pos (show (0 : Fin 2) ∈ (rowScatter C wf).scatterDimsToOperandDims from List.mem_singleton.mpr rfl)]
    have hsi : (rowScatter C wf).siIdx (ix2 j c) ⟨List.idxOf (0 : Fin 2) (rowScatter C wf).scatterDimsToOperandDims,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
  have hs1 : (rowScatter C wf).start (ix2 j c) idx 1 = 0 := by
    unfold ScatterDims.start
    rw [dif_neg (fun h => absurd (List.mem_singleton.mp h) (show ¬ ((1 : Fin 2) = 0) by decide))]
  have hw0 : (rowScatter C wf).window (ix2 j c) 0 = 0 := by
    unfold ScatterDims.window
    rw [dif_neg (fun h => by simp [Shape.kept] at h)]
  have hw1 : (rowScatter C wf).window (ix2 j c) 1 = c.val := by
    unfold ScatterDims.window
    rw [dif_pos (by simp [Shape.kept])]
    rfl
  by_cases h : 0 ≤ (idx (ix2 j (0 : Fin 1))).toInt ∧ (idx (ix2 j (0 : Fin 1))).toInt < 50000
  · have hall : ∀ a, 0 ≤ (rowScatter C wf).start (ix2 j c) idx a + (rowScatter C wf).window (ix2 j c) a ∧
        (rowScatter C wf).start (ix2 j c) idx a + (rowScatter C wf).window (ix2 j c) a < (⟨2, ![50000, C]⟩ : Shape).size a := by
      refine Fin.forall_fin_two.mpr ⟨?_, ?_⟩
      · rw [hs0, hw0]; show 0 ≤ _ + ((0 : Nat) : Int) ∧ _ + ((0 : Nat) : Int) < ((50000 : Nat) : Int); omega
      · rw [hs1, hw1]; show 0 ≤ (0 : Int) + (c.val : Int) ∧ (0 : Int) + (c.val : Int) < ((C : Nat) : Int); have := c.isLt; omega
    unfold ScatterDims.resultIdx? land
    rw [dif_pos hall, dif_pos h]
    show some _ = some _
    congr 1
    funext a; refine Fin.ext ?_
    match a with
    | ⟨0, _⟩ =>
      show ((rowScatter C wf).start (ix2 j c) idx 0 + (rowScatter C wf).window (ix2 j c) 0).toNat = (idx (ix2 j (0 : Fin 1))).toInt.toNat
      rw [hs0, hw0]; simp
    | ⟨1, _⟩ =>
      show ((rowScatter C wf).start (ix2 j c) idx 1 + (rowScatter C wf).window (ix2 j c) 1).toNat = c.val
      rw [hs1, hw1]; simp
  · have hnall : ¬ ∀ a, 0 ≤ (rowScatter C wf).start (ix2 j c) idx a + (rowScatter C wf).window (ix2 j c) a ∧
        (rowScatter C wf).start (ix2 j c) idx a + (rowScatter C wf).window (ix2 j c) a < (⟨2, ![50000, C]⟩ : Shape).size a := by
      intro hall
      have h0 := hall 0
      rw [hs0, hw0] at h0
      exact h (by have : (((⟨2, ![50000, C]⟩ : Shape).size 0 : Nat) : Int) = 50000 := rfl; omega)
    unfold ScatterDims.resultIdx? land
    rw [dif_neg hnall, dif_neg h]
    rfl

/-- The dimension numbers of a gather along rows out of a 50000-row array of `C` columns, one node number per message:
    the result's axis 1 is the offset axis, the operand's axis 0 is collapsed and is the one the node number addresses,
    and a whole row (`1 × C`) is read. -/
abbrev rowGather (C : Nat)
    (wf : GatherDims.WF ⟨2, ![50000, C]⟩ ⟨2, ![850000, 1]⟩ ⟨2, ![850000, C]⟩ [1] [0] [] [0] [] 1 ![1, C]) :
    GatherDims ⟨2, ![50000, C]⟩ ⟨2, ![850000, 1]⟩ ⟨2, ![850000, C]⟩ where
  offsetDims := [1]
  collapsedSliceDims := [0]
  operandBatchingDims := []
  startIndicesBatchingDims := []
  startIndexMap := [0]
  indexVectorDim := 1
  sliceSizes := ![1, C]
  wf := wf

/-- Result entry `(j, c)` of a gather along rows reads operand entry `(pick idx j, c)`. -/
theorem rowGather_operandIdx {C : Nat}
    (wf : GatherDims.WF ⟨2, ![50000, C]⟩ ⟨2, ![850000, 1]⟩ ⟨2, ![850000, C]⟩ [1] [0] [] [0] [] 1 ![1, C])
    (idx : IVec S850000x1 32) (j : Fin 850000) (c : Fin C) :
    (rowGather C wf).operandIdx (ix2 j c) idx = ix2 (pick idx j) c := by
  funext a; refine Fin.ext ?_
  match a with
  | ⟨0, _⟩ =>
    show (rowGather C wf).start (ix2 j c) idx 0 + (rowGather C wf).batchCoord (ix2 j c) 0
      + (rowGather C wf).offCoord (ix2 j c) 0 = min (idx (ix2 j (0 : Fin 1))).toInt.toNat 49999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather C wf).startIndexMap from List.mem_singleton.mpr rfl)]
    have hsi : (rowGather C wf).siIdx (ix2 j c) ⟨List.idxOf (0 : Fin 2) (rowGather C wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  | ⟨1, _⟩ =>
    show (rowGather C wf).start (ix2 j c) idx 1 + (rowGather C wf).batchCoord (ix2 j c) 1
      + (rowGather C wf).offCoord (ix2 j c) 1 = c.val
    rw [GatherDims.batchCoord_eq_zero _ _ _ List.not_mem_nil]
    unfold GatherDims.start GatherDims.offCoord
    rw [dif_neg (fun h => absurd (List.mem_singleton.mp h) (show ¬ ((1 : Fin 2) = 0) by decide)),
      dif_pos (((rowGather C wf).mem_sKept 1).mpr ⟨fun h => absurd (List.mem_singleton.mp h) (show ¬ ((1 : Fin 2) = 0) by decide), List.not_mem_nil⟩)]
    show 0 + 0 + c.val = c.val
    omega

/-! ## One aggregation step read at an entry

Entry `(r, c)` of one aggregation step is the start value there plus the sum, over the messages `j` that land on row `r`,
of the aggregated array at `(pick J j, c)` times the weight of `j`: of the update entries `(j, c')` only those with
`c' = c` land in column `c`.  The statement is about any scatter and gather records with the two row readings above,
for arbitrary node-number arrays and weights. -/

theorem scatter_mul_gather_apply {C : Nat}
    (d : ScatterDims ⟨2, ![50000, C]⟩ ⟨2, ![850000, 1]⟩ ⟨2, ![850000, C]⟩)
    (g : GatherDims ⟨2, ![50000, C]⟩ ⟨2, ![850000, 1]⟩ ⟨2, ![850000, C]⟩)
    (hd : ∀ (I : IVec S850000x1 32) (j : Fin 850000) (c : Fin C),
      d.resultIdx? (ix2 j c) I = (land I j).map fun r => ix2 r c)
    (hg : ∀ (J : IVec S850000x1 32) (j : Fin 850000) (c : Fin C), g.operandIdx (ix2 j c) J = ix2 (pick J j) c)
    (hb : S850000x1.BroadcastsInDim ⟨2, ![850000, C]⟩ (![0, 1] : Fin 2 → Fin 2))
    (z Q : FVec Ideal ⟨2, ![50000, C]⟩ .f32) (I J : IVec S850000x1 32) (n : FVec Ideal S850000 .f32)
    (r : Fin 50000) (c : Fin C) :
    Host.scatterAdd d z I (mulf (Host.gather g Q J)
        (broadcastInDim ⟨2, ![850000, C]⟩ ![0, 1] hb (broadcastInDim S850000x1 ![0] bcast_S850000_S850000x1_0 n))) (ix2 r c)
      = z (ix2 r c) + ∑ j ∈ Finset.univ.filter (fun j : Fin 850000 => land I j = some r),
          Q (ix2 (pick J j) c) * n (ix1 j) := by
  have hupd : ∀ (j : Fin 850000) (c' : Fin C),
      mulf (Host.gather g Q J) (broadcastInDim ⟨2, ![850000, C]⟩ ![0, 1] hb
        (broadcastInDim S850000x1 ![0] bcast_S850000_S850000x1_0 n)) (ix2 j c') = Q (ix2 (pick J j) c') * n (ix1 j) := by
    intro j c'
    rw [mulf_apply]
    unfold Host.gather
    rw [hg, broadcastInDim_apply ![0, 1] hb _ (ix2 j c') (ix2 j (0 : Fin 1))
        (fun a => match a with | ⟨0, _⟩ => rfl | ⟨1, _⟩ => rfl),
      broadcastInDim_apply ![0] bcast_S850000_S850000x1_0 n (ix2 j (0 : Fin 1)) (ix1 j)
        (fun a => match a with | ⟨0, _⟩ => rfl)]
  generalize mulf (Host.gather g Q J) (broadcastInDim ⟨2, ![850000, C]⟩ ![0, 1] hb
    (broadcastInDim S850000x1 ![0] bcast_S850000_S850000x1_0 n)) = upd at hupd ⊢
  unfold Host.scatterAdd
  rw [Ideal.hostScatterAdd_def]
  unfold Ideal.hostScatterAdd
  refine congrArg (fun t => z (ix2 r c) + t) ?_
  rw [Finset.sum_filter, sum_idx2, Finset.sum_filter]
  refine Finset.sum_congr rfl fun j _ => ?_
  rw [Finset.sum_eq_single c]
  · rw [hd, hupd]
    cases land I j with
    | none => simp
    | some r' => simp [ix2_eq_iff]
  · intro c' _ hne
    rw [hd]
    cases land I j with
    | none => simp
    | some r' => simp [ix2_eq_iff, hne]
  · intro h; exact absurd (Finset.mem_univ c) h

/-! ## The two programs' records

The kernel program aggregates 128 columns, the reference program 64; their scatter and gather records are the row
scatter and the row gather above, so they land and read by the same `land` and `pick`. -/

theorem scatter128_resultIdx (I : IVec S850000x1 32) (j : Fin 850000) (c : Fin 128) :
    Cert.KernelIdeal.scatter_S50000x128_S850000x1_S850000x128_1_0_0_1.resultIdx? (ix2 j c) I
      = (land I j).map fun r => ix2 r c :=
  rowScatter_resultIdx Cert.KernelIdeal.scatter_S50000x128_S850000x1_S850000x128_1_0_0_1.wf I j c

theorem scatter64_resultIdx (I : IVec S850000x1 32) (j : Fin 850000) (c : Fin 64) :
    scatter_S50000x64_S850000x1_S850000x64_1_0_0_1.resultIdx? (ix2 j c) I = (land I j).map fun r => ix2 r c :=
  rowScatter_resultIdx scatter_S50000x64_S850000x1_S850000x64_1_0_0_1.wf I j c

theorem gather128_operandIdx (J : IVec S850000x1 32) (j : Fin 850000) (c : Fin 128) :
    Cert.KernelIdeal.gather_S50000x128_S850000x1_S850000x128_1_0_n_n_0_1_1128.operandIdx (ix2 j c) J
      = ix2 (pick J j) c :=
  rowGather_operandIdx Cert.KernelIdeal.gather_S50000x128_S850000x1_S850000x128_1_0_n_n_0_1_1128.wf J j c

theorem gather64_operandIdx (J : IVec S850000x1 32) (j : Fin 850000) (c : Fin 64) :
    gather_S50000x64_S850000x1_S850000x64_1_0_n_n_0_1_164.operandIdx (ix2 j c) J = ix2 (pick J j) c :=
  rowGather_operandIdx gather_S50000x64_S850000x1_S850000x64_1_0_n_n_0_1_164.wf J j c

/-! ## Cutting the columns commutes with aggregating

Entry `(r, c)` of the 64 columns cut at column `o` out of the aggregate of a 128-column array `Q` is the aggregate's
entry `(r, o + c)`: zero plus the sum over the messages `j` landing on row `r` of `Q (pick j, o + c)` times the weight of
`j`.  Entry `(r, c)` of the aggregate of the cut is zero plus the sum over the same messages of the cut's entry
`(pick j, c)`, which is `Q (pick j, o + c)`, times the same weight.  The two sums are the same sum term by term. -/

theorem slice_agg128_at (o : Nat) (ho : o + 64 ≤ 128) (hs : Cert.KernelIdeal.S50000x128.Slices ![0, o] S50000x64)
    (e : IVec S2x800000 32) (Q : FVec Ideal Cert.KernelIdeal.S50000x128 .f32) :
    extractStridedSlice S50000x64 ![0, o] (agg128 e Q) hs = agg64 e (extractStridedSlice S50000x64 ![0, o] Q hs) := by
  funext i
  obtain ⟨r, c, rfl⟩ : ∃ (r : Fin 50000) (c : Fin 64), i = ix2 r c := ⟨i 0, i 1, eq_ix2 i⟩
  have hc : o + c.val < 128 := by have := c.isLt; omega
  have hcut : ∀ (x : FVec Ideal Cert.KernelIdeal.S50000x128 .f32) (p : Fin 50000),
      extractStridedSlice S50000x64 ![0, o] x hs (ix2 p c) = x (ix2 p (⟨o + c.val, hc⟩ : Fin 128)) := fun x p =>
    extractStridedSlice_apply ![0, o] x hs (ix2 p c) (ix2 p (⟨o + c.val, hc⟩ : Fin 128)) (fun a => match a with
      | ⟨0, _⟩ => by show p.val = 0 + p.val; omega
      | ⟨1, _⟩ => rfl)
  rw [hcut]
  unfold agg128 agg64
  generalize col (dst e) = I
  generalize rowOf (src e) = J
  generalize nrm e = n
  rw [scatter_mul_gather_apply (C := 128) _ _ scatter128_resultIdx gather128_operandIdx,
    scatter_mul_gather_apply (C := 64) _ _ scatter64_resultIdx gather64_operandIdx]
  refine congrArg₂ (· + ·) rfl (Finset.sum_congr rfl fun j _ => ?_)
  rw [hcut]

theorem slice_agg128_lo (e : IVec S2x800000 32) (Q : FVec Ideal Cert.KernelIdeal.S50000x128 .f32) :
    extractStridedSlice S50000x64 ![0, 0] (agg128 e Q) Cert.KernelIdeal.Gen.slices_S50000x128_S50000x64_0_0
      = agg64 e (extractStridedSlice S50000x64 ![0, 0] Q Cert.KernelIdeal.Gen.slices_S50000x128_S50000x64_0_0) :=
  slice_agg128_at 0 (by omega) Cert.KernelIdeal.Gen.slices_S50000x128_S50000x64_0_0 e Q

theorem slice_agg128_hi (e : IVec S2x800000 32) (Q : FVec Ideal Cert.KernelIdeal.S50000x128 .f32) :
    extractStridedSlice S50000x64 ![0, 64] (agg128 e Q) Cert.KernelIdeal.Gen.slices_S50000x128_S50000x64_0_64
      = agg64 e (extractStridedSlice S50000x64 ![0, 64] Q Cert.KernelIdeal.Gen.slices_S50000x128_S50000x64_0_64) :=
  slice_agg128_at 64 (by omega) Cert.KernelIdeal.Gen.slices_S50000x128_S50000x64_0_64 e Q

end Cert.Gcn

end
-- ==== Proof.MatCols.lean ====
/-
  The entry-by-entry product `mm` is the host's `dot_general`, and the product with two 256×64 weight matrices put
  side by side, cut at column 64, is the product with each.

  At the exact-real reading the host's `dot_general` of an M×K and a K×N array with dimension numbers
  "contract axis 1 of the left with axis 0 of the right" is, at entry (r, j), the sum over the contraction index of
  left (r, ·) · right (·, j); the contraction index set has one axis of extent K, so the sum is a sum over the K
  column numbers k of x (r, k) · w (k, j): that is `mm`.  Column j' of `wcat a b` is column j' of `a` when
  j' < 64 and column j' - 64 of `b` when 64 ≤ j'; a sum over k of h (r, k) · (wcat a b) (k, j') therefore is the
  product with `a` at column j' resp. with `b` at column j' - 64.  No law of arithmetic is used beyond re-indexing
  a finite sum.
-/
import proofs.«137330_j61710090109081_1_alg».proof.Proof.GcnSpec
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.ValueIdx Cert.ReferenceIdeal Cert.ReferenceIdeal.Gen

/-- The left operand's index at output entry `i` and contraction index `q`: its row is the output's row. -/
theorem dot1_lhs_row (i : S50000x256.Idx) (q : dot_S50000x2000_S2000x256_S50000x256_1_0_0_1_n_n.contr.Idx) :
    (dot_S50000x2000_S2000x256_S50000x256_1_0_0_1_n_n.lhsIdx i q 0).val = (i 0).val := by
  unfold DotDims.lhsIdx
  rw [dif_neg (show ¬(0 : Fin S50000x2000.rank) ∈ dot_S50000x2000_S2000x256_S50000x256_1_0_0_1_n_n.lhsBatch by decide), dif_pos (show (0 : Fin S50000x2000.rank) ∈ dot_S50000x2000_S2000x256_S50000x256_1_0_0_1_n_n.lhsNonContracting by decide)]
  rfl
/-- Its column is the contraction index. -/
theorem dot1_lhs_col (i : S50000x256.Idx) (q : dot_S50000x2000_S2000x256_S50000x256_1_0_0_1_n_n.contr.Idx) :
    (dot_S50000x2000_S2000x256_S50000x256_1_0_0_1_n_n.lhsIdx i q 1).val = (q ⟨0, by decide⟩).val :=
  dot_S50000x2000_S2000x256_S50000x256_1_0_0_1_n_n.lhsIdx_val_of_single rfl i q
/-- The right operand's index: its row is the contraction index. -/
theorem dot1_rhs_row (i : S50000x256.Idx) (q : dot_S50000x2000_S2000x256_S50000x256_1_0_0_1_n_n.contr.Idx) :
    (dot_S50000x2000_S2000x256_S50000x256_1_0_0_1_n_n.rhsIdx i q 0).val = (q ⟨0, by decide⟩).val :=
  dot_S50000x2000_S2000x256_S50000x256_1_0_0_1_n_n.rhsIdx_val_of_single rfl i q
/-- Its column is the output's column. -/
theorem dot1_rhs_col (i : S50000x256.Idx) (q : dot_S50000x2000_S2000x256_S50000x256_1_0_0_1_n_n.contr.Idx) :
    (dot_S50000x2000_S2000x256_S50000x256_1_0_0_1_n_n.rhsIdx i q 1).val = (i 1).val := by
  unfold DotDims.rhsIdx
  rw [dif_neg (show ¬(1 : Fin S2000x256.rank) ∈ dot_S50000x2000_S2000x256_S50000x256_1_0_0_1_n_n.rhsBatch by decide), dif_pos (show (1 : Fin S2000x256.rank) ∈ dot_S50000x2000_S2000x256_S50000x256_1_0_0_1_n_n.rhsNonContracting by decide)]
  rfl

/-- The host's product of a 50000×2000 and a 2000×256 array at an entry: its one contracted axis re-indexed by
    the 2000 column numbers, entry (r, j) is the sum over k of x (r, k) · w (k, j). -/
theorem dot1_apply (x : FVec Ideal S50000x2000 .f32) (w : FVec Ideal S2000x256 .f32) (i : S50000x256.Idx) :
    Host.dotGeneral dot_S50000x2000_S2000x256_S50000x256_1_0_0_1_n_n none x w i
      = ∑ k : Fin 2000, x (ix2 ⟨(i 0).val, idx2_lt0 i⟩ k) * w (ix2 k ⟨(i 1).val, idx2_lt1 i⟩) := by
  simp only [Host.dotGeneral]
  rw [Ideal.dotGeneral_apply, ← Equiv.sum_comp (contrEquiv1 dot_S50000x2000_S2000x256_S50000x256_1_0_0_1_n_n 2000 rfl rfl).symm]
  refine Finset.sum_congr rfl fun k _ => ?_
  have hk := contrEquiv1_symm_val dot_S50000x2000_S2000x256_S50000x256_1_0_0_1_n_n 2000 rfl rfl k
  have el : dot_S50000x2000_S2000x256_S50000x256_1_0_0_1_n_n.lhsIdx i ((contrEquiv1 dot_S50000x2000_S2000x256_S50000x256_1_0_0_1_n_n 2000 rfl rfl).symm k) = ix2 ⟨(i 0).val, idx2_lt0 i⟩ k := funext fun a => Fin.ext (by
    match a with
    | ⟨0, _⟩ => exact dot1_lhs_row _ _
    | ⟨1, _⟩ => exact (dot1_lhs_col _ _).trans hk)
  have er : dot_S50000x2000_S2000x256_S50000x256_1_0_0_1_n_n.rhsIdx i ((contrEquiv1 dot_S50000x2000_S2000x256_S50000x256_1_0_0_1_n_n 2000 rfl rfl).symm k) = ix2 k ⟨(i 1).val, idx2_lt1 i⟩ := funext fun a => Fin.ext (by
    match a with
    | ⟨0, _⟩ => exact (dot1_rhs_row _ _).trans hk
    | ⟨1, _⟩ => exact dot1_rhs_col _ _)
  rw [el, er]

/-- `mm` of a 50000×2000 and a 2000×256 array is the host's product of the two. -/
theorem mm_eq_dot1 (x : FVec Ideal S50000x2000 .f32) (w : FVec Ideal S2000x256 .f32) :
    mm x w = Host.dotGeneral dot_S50000x2000_S2000x256_S50000x256_1_0_0_1_n_n none x w :=
  funext fun i => (dot1_apply x w i).symm

/-- The left operand's index at output entry `i` and contraction index `q`: its row is the output's row. -/
theorem dot2_lhs_row (i : S50000x64.Idx) (q : dot_S50000x256_S256x64_S50000x64_1_0_0_1_n_n.contr.Idx) :
    (dot_S50000x256_S256x64_S50000x64_1_0_0_1_n_n.lhsIdx i q 0).val = (i 0).val := by
  unfold DotDims.lhsIdx
  rw [dif_neg (show ¬(0 : Fin S50000x256.rank) ∈ dot_S50000x256_S256x64_S50000x64_1_0_0_1_n_n.lhsBatch by decide), dif_pos (show (0 : Fin S50000x256.rank) ∈ dot_S50000x256_S256x64_S50000x64_1_0_0_1_n_n.lhsNonContracting by decide)]
  rfl
/-- Its column is the contraction index. -/
theorem dot2_lhs_col (i : S50000x64.Idx) (q : dot_S50000x256_S256x64_S50000x64_1_0_0_1_n_n.contr.Idx) :
    (dot_S50000x256_S256x64_S50000x64_1_0_0_1_n_n.lhsIdx i q 1).val = (q ⟨0, by decide⟩).val :=
  dot_S50000x256_S256x64_S50000x64_1_0_0_1_n_n.lhsIdx_val_of_single rfl i q
/-- The right operand's index: its row is the contraction index. -/
theorem dot2_rhs_row (i : S50000x64.Idx) (q : dot_S50000x256_S256x64_S50000x64_1_0_0_1_n_n.contr.Idx) :
    (dot_S50000x256_S256x64_S50000x64_1_0_0_1_n_n.rhsIdx i q 0).val = (q ⟨0, by decide⟩).val :=
  dot_S50000x256_S256x64_S50000x64_1_0_0_1_n_n.rhsIdx_val_of_single rfl i q
/-- Its column is the output's column. -/
theorem dot2_rhs_col (i : S50000x64.Idx) (q : dot_S50000x256_S256x64_S50000x64_1_0_0_1_n_n.contr.Idx) :
    (dot_S50000x256_S256x64_S50000x64_1_0_0_1_n_n.rhsIdx i q 1).val = (i 1).val := by
  unfold DotDims.rhsIdx
  rw [dif_neg (show ¬(1 : Fin S256x64.rank) ∈ dot_S50000x256_S256x64_S50000x64_1_0_0_1_n_n.rhsBatch by decide), dif_pos (show (1 : Fin S256x64.rank) ∈ dot_S50000x256_S256x64_S50000x64_1_0_0_1_n_n.rhsNonContracting by decide)]
  rfl

/-- The host's product of a 50000×256 and a 256×64 array at an entry: the sum over the 256 column numbers k of
    x (r, k) · w (k, j). -/
theorem dot2_apply (x : FVec Ideal S50000x256 .f32) (w : FVec Ideal S256x64 .f32) (i : S50000x64.Idx) :
    Host.dotGeneral dot_S50000x256_S256x64_S50000x64_1_0_0_1_n_n none x w i
      = ∑ k : Fin 256, x (ix2 ⟨(i 0).val, idx2_lt0 i⟩ k) * w (ix2 k ⟨(i 1).val, idx2_lt1 i⟩) := by
  simp only [Host.dotGeneral]
  rw [Ideal.dotGeneral_apply, ← Equiv.sum_comp (contrEquiv1 dot_S50000x256_S256x64_S50000x64_1_0_0_1_n_n 256 rfl rfl).symm]
  refine Finset.sum_congr rfl fun k _ => ?_
  have hk := contrEquiv1_symm_val dot_S50000x256_S256x64_S50000x64_1_0_0_1_n_n 256 rfl rfl k
  have el : dot_S50000x256_S256x64_S50000x64_1_0_0_1_n_n.lhsIdx i ((contrEquiv1 dot_S50000x256_S256x64_S50000x64_1_0_0_1_n_n 256 rfl rfl).symm k) = ix2 ⟨(i 0).val, idx2_lt0 i⟩ k := funext fun a => Fin.ext (by
    match a with
    | ⟨0, _⟩ => exact dot2_lhs_row _ _
    | ⟨1, _⟩ => exact (dot2_lhs_col _ _).trans hk)
  have er : dot_S50000x256_S256x64_S50000x64_1_0_0_1_n_n.rhsIdx i ((contrEquiv1 dot_S50000x256_S256x64_S50000x64_1_0_0_1_n_n 256 rfl rfl).symm k) = ix2 k ⟨(i 1).val, idx2_lt1 i⟩ := funext fun a => Fin.ext (by
    match a with
    | ⟨0, _⟩ => exact (dot2_rhs_row _ _).trans hk
    | ⟨1, _⟩ => exact dot2_rhs_col _ _)
  rw [el, er]

/-- An entry in one of the first 64 columns of two matrices side by side is the first matrix's entry there. -/
theorem wcat_apply_lo (a b : FVec Ideal S256x64 .f32) (k : Fin 256) (j : Fin 128) (hj : j.val < 64) :
    wcat a b (ix2 k j) = a (ix2 k ⟨j.val, hj⟩) := by
  unfold wcat
  exact concatenate_pair_apply_left (1 : Fin Cert.KernelIdeal.S256x128.rank) a b
    Cert.KernelIdeal.Gen.concatenates_S256x64_S256x64_S256x128_d1 (ix2 k j) rfl (ix2 k ⟨j.val, hj⟩)
    (fun c => match c with | ⟨0, _⟩ => rfl | ⟨1, _⟩ => rfl)

/-- An entry in one of the last 64 columns is the second matrix's entry 64 columns to the left. -/
theorem wcat_apply_hi (a b : FVec Ideal S256x64 .f32) (k : Fin 256) (j : Fin 128) (hj : 64 ≤ j.val) :
    wcat a b (ix2 k j) = b (ix2 k ⟨j.val - 64, by have := j.isLt; omega⟩) := by
  unfold wcat
  exact concatenate_pair_apply_right (1 : Fin Cert.KernelIdeal.S256x128.rank) a b
    Cert.KernelIdeal.Gen.concatenates_S256x64_S256x64_S256x128_d1 (ix2 k j) rfl rfl
    (ix2 k ⟨j.val - 64, by have := j.isLt; omega⟩)
    (fun c hc => match c, hc with | ⟨0, _⟩, _ => rfl | ⟨1, _⟩, hc => absurd rfl hc)
    (by show j.val - 64 + 64 = j.val; omega)

/-- Columns 0–63 of the product with the two matrices side by side are the product with the first. -/
theorem slice_mm_lo (h : FVec Ideal S50000x256 .f32) (a b : FVec Ideal S256x64 .f32) :
    extractStridedSlice S50000x64 ![0, 0] (mm h (wcat a b)) Cert.KernelIdeal.Gen.slices_S50000x128_S50000x64_0_0
      = Host.dotGeneral dot_S50000x256_S256x64_S50000x64_1_0_0_1_n_n none h a := by
  funext i
  obtain ⟨r, j, rfl⟩ : ∃ (r : Fin 50000) (j : Fin 64), i = ix2 r j := ⟨i 0, i 1, eq_ix2 i⟩
  have hj : j.val < 128 := by have := j.isLt; omega
  rw [dot2_apply, extractStridedSlice_apply ![0, 0] (mm h (wcat a b)) Cert.KernelIdeal.Gen.slices_S50000x128_S50000x64_0_0
    (ix2 r j) (ix2 r ⟨j.val, hj⟩) (fun c => match c with
      | ⟨0, _⟩ => by show r.val = 0 + r.val; omega
      | ⟨1, _⟩ => by show j.val = 0 + j.val; omega)]
  refine Finset.sum_congr rfl fun k _ => ?_
  exact congrArg (h (ix2 ⟨r.val, r.isLt⟩ k) * ·) (wcat_apply_lo a b k ⟨j.val, hj⟩ j.isLt)

/-- Columns 64–127 of the product with the two matrices side by side are the product with the second. -/
theorem slice_mm_hi (h : FVec Ideal S50000x256 .f32) (a b : FVec Ideal S256x64 .f32) :
    extractStridedSlice S50000x64 ![0, 64] (mm h (wcat a b)) Cert.KernelIdeal.Gen.slices_S50000x128_S50000x64_0_64
      = Host.dotGeneral dot_S50000x256_S256x64_S50000x64_1_0_0_1_n_n none h b := by
  funext i
  obtain ⟨r, j, rfl⟩ : ∃ (r : Fin 50000) (j : Fin 64), i = ix2 r j := ⟨i 0, i 1, eq_ix2 i⟩
  have hj : 64 + j.val < 128 := by have := j.isLt; omega
  rw [dot2_apply, extractStridedSlice_apply ![0, 64] (mm h (wcat a b)) Cert.KernelIdeal.Gen.slices_S50000x128_S50000x64_0_64
    (ix2 r j) (ix2 r ⟨64 + j.val, hj⟩) (fun c => match c with
      | ⟨0, _⟩ => by show r.val = 0 + r.val; omega
      | ⟨1, _⟩ => by show 64 + j.val = 64 + j.val; rfl)]
  refine Finset.sum_congr rfl fun k _ => ?_
  refine (congrArg (h (ix2 ⟨r.val, r.isLt⟩ k) * ·) (wcat_apply_hi a b k ⟨64 + j.val, hj⟩ (by show 64 ≤ 64 + j.val; omega))).trans ?_
  exact congrArg (fun c : Fin 64 => h (ix2 ⟨r.val, r.isLt⟩ k) * b (ix2 k c)) (Fin.ext (by show 64 + j.val - 64 = j.val; omega))

end Cert.Gcn

end
-- ==== Proof.Bridge.lean ====
/-
  The kernel program's results are the reference's.  The reference computes each head as one more aggregation of the
  hidden layer's product with that head's 64-column weights.  The kernel computes ONE product with the two weight
  matrices side by side (128 columns), aggregates it, and cuts the result at column 64.  Aggregation acts on every
  column by itself, so cutting after it is cutting before it; a product with two matrices side by side, cut at the
  seam, is the product with each; and each region's entry-by-entry product is the host's dot_general, the re-typing of
  the weights for the matrix unit being nothing at the exact-real reading.  Of the arithmetic of the extended reals
  nothing is used beyond re-indexing finite sums and dropping a zero accumulator (no distributivity, no cancellation),
  so no lemma takes a finiteness hypothesis.
-/
import proofs.«137330_j61710090109081_1_alg».proof.Proof.KernelValue
import proofs.«137330_j61710090109081_1_alg».proof.Proof.RefValue
import proofs.«137330_j61710090109081_1_alg».proof.Proof.AggSlice
import proofs.«137330_j61710090109081_1_alg».proof.Proof.MatCols

set_option maxRecDepth 16384

noncomputable section

namespace Cert.KernelIdeal.GcnBridge

open Idealize.ShloMosaic Idealize.ShloMosaic.TcCoe Idealize.SL.Sem Cert.KernelIdeal Cert.KernelIdeal.Gen
open Cert.KernelIdeal.GcnWalk

variable (m : (ℓ : Loc nD τ sig) → Buf (Elt Ideal) ℓ) (ρ : Dev nD → PrngReg) (c : Dev nD)

/-- The first region's product is the host's dot_general of the features and the first weights. -/
theorem prod1_eq : prod1 m c
    = Host.dotGeneral (φ₁ := .f32) (φ₂ := .f32) Cert.ReferenceIdeal.dot_S50000x2000_S2000x256_S50000x256_1_0_0_1_n_n none ((m ((c : Thread nD τ).loc main_arg0)) : FVec Ideal Cert.ReferenceIdeal.S50000x2000 .f32) ((m ((c : Thread nD τ).loc main_arg2)) : FVec Ideal Cert.ReferenceIdeal.S2000x256 .f32) :=
  Cert.Gcn.mm_eq_dot1 (m ((c : Thread nD τ).loc main_arg0)) (m ((c : Thread nD τ).loc main_arg2))

/-- Columns 0–63 of the second region's product are the hidden layer times the first head's weights. -/
theorem prod2_lo : extractStridedSlice Cert.ReferenceIdeal.S50000x64 ![0, 0] (prod2 m c) slices_S50000x128_S50000x64_0_0
    = Host.dotGeneral (φ₁ := .f32) (φ₂ := .f32) Cert.ReferenceIdeal.dot_S50000x256_S256x64_S50000x64_1_0_0_1_n_n none (hidden m c) ((m ((c : Thread nD τ).loc main_arg4)) : FVec Ideal Cert.ReferenceIdeal.S256x64 .f32) :=
  Cert.Gcn.slice_mm_lo (hidden m c) (m ((c : Thread nD τ).loc main_arg4)) (m ((c : Thread nD τ).loc main_arg6))

/-- Columns 64–127 of the second region's product are the hidden layer times the second head's weights. -/
theorem prod2_hi : extractStridedSlice Cert.ReferenceIdeal.S50000x64 ![0, 64] (prod2 m c) slices_S50000x128_S50000x64_0_64
    = Host.dotGeneral (φ₁ := .f32) (φ₂ := .f32) Cert.ReferenceIdeal.dot_S50000x256_S256x64_S50000x64_1_0_0_1_n_n none (hidden m c) ((m ((c : Thread nD τ).loc main_arg6)) : FVec Ideal Cert.ReferenceIdeal.S256x64 .f32) :=
  Cert.Gcn.slice_mm_hi (hidden m c) (m ((c : Thread nD τ).loc main_arg4)) (m ((c : Thread nD τ).loc main_arg6))

/-- The kernel program's first result is the reference's first head. -/
theorem result_mu : W9 m ρ c (Proc.devRef .tc main_v68)
    = Cert.ReferenceIdeal.GcnRef.head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [out_mu m ρ c]
  unfold Cert.ReferenceIdeal.GcnRef.head Cert.Gcn.out64
  rw [← prod1_eq m c]
  refine congrArg (fun z => addf z _) ?_
  exact (Cert.Gcn.slice_agg128_lo _ _).trans (congrArg (Cert.Gcn.agg64 _) (prod2_lo m c))

/-- The kernel program's second result is the reference's second head. -/
theorem result_var : W9 m ρ c (Proc.devRef .tc main_v72)
    = Cert.ReferenceIdeal.GcnRef.head (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  rw [out_var m ρ c]
  unfold Cert.ReferenceIdeal.GcnRef.head Cert.Gcn.out64
  rw [← prod1_eq m c]
  refine congrArg (fun z => addf z _) ?_
  exact (Cert.Gcn.slice_agg128_hi _ _).trans (congrArg (Cert.Gcn.agg64 _) (prod2_hi m c))

end Cert.KernelIdeal.GcnBridge

end
-- ==== Proof.lean ====
/-
  The certificate of a two-layer graph-convolution encoder: a Pallas version against a plain jnp reference, at the
  exact-real reading of both (floats extended reals, every operation exact, a change of float format the identity).

  Both programs read the edge list `e` the same way: 850000 messages (the 800000 edges and a self loop per node), the
  number `deg` of messages that target each node, `dinv = deg^(-1/2)` where the degree is positive and 0 elsewhere,
  the weight `dinv (source) · dinv (target)` of each message, and an aggregation step `agg` that sends a node-by-column
  array `P` to the array whose row `r` is the sum, over the messages that target `r`, of weight times the source's row
  of `P`.  The hidden layer is `h = max (agg (x · W1) + b1) 0`, and the two results are `agg (h · W_mu) + b_mu` and
  `agg (h · W_var) + b_var`.

  The reference computes the three products on the host.  The kernel program computes `x · W1` by a matmul kernel over
  blocks of 1000 rows, and, for the two heads at once, ONE product `h · [W_mu | W_var]` (the two 256×64 matrices side
  by side, 128 columns) by a matmul kernel over blocks of 2000 rows; it aggregates the 128 columns and cuts the result
  at column 64.  Each block of a kernel's output is the block's rows of the entry-by-entry product, and the blocks tile
  the array, so each region leaves the whole product; the entry-by-entry product is the host's dot_general; aggregation
  acts on every column by itself, so cutting after it is cutting before it; and a product with two matrices side by
  side, cut at the seam, is the product with each.  Of the arithmetic of the extended reals nothing is
  used beyond re-indexing finite sums and dropping a zero accumulator (no distributivity, no cancellation), so no lemma
  takes a finiteness hypothesis and the precondition is never opened.  The ideal pass rewrote no operation, so the
  idealization's ledger is empty.
-/
import proofs.«137330_j61710090109081_1_alg».proof.Defs
import proofs.«137330_j61710090109081_1_alg».proof.Proof.Gen.Kernel
import proofs.«137330_j61710090109081_1_alg».proof.Proof.Gen.Kernel.Frame
import proofs.«137330_j61710090109081_1_alg».proof.Proof.Gen.KernelIdeal
import proofs.«137330_j61710090109081_1_alg».proof.Proof.Gen.KernelIdeal.Frame
import proofs.«137330_j61710090109081_1_alg».proof.Proof.Gen.ReferenceIdeal
import proofs.«137330_j61710090109081_1_alg».proof.Proof.Gen.Pre_finite_inputs
import proofs.«137330_j61710090109081_1_alg».proof.Proof.KernelRun
import proofs.«137330_j61710090109081_1_alg».proof.Proof.RefRun
import proofs.«137330_j61710090109081_1_alg».proof.Proof.Bridge
import Idealize.ShloMosaic.Adequacy
import Idealize.ShloMosaic.Init

set_option maxRecDepth 16384

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, the two results dropped. -/
theorem frame_referenceIdeal : Cert.frame_ReferenceIdeal := fun m ρ _ =>
  (θ_run Cert.ReferenceIdeal.defs _ _).mono (fun _ h c => (h c).2.2) (Cert.ReferenceIdeal.RunP.run (F := Ideal) m ρ)

/-- The idealization rewrote nothing. -/
theorem preserves : Cert.preserves_Kernel_KernelIdeal := trivial

/-- From memories that agree on the arguments both idealized programs run, and both end with the two heads of the
    encoder — as functions of the arguments — in their two result arrays. -/
theorem algebraic : Cert.algebraic_KernelIdeal_ReferenceIdeal := by
  intro m ρ m' ρ' _ hagree
  refine ⟨fun c => Cert.ReferenceIdeal.GcnRef.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.GcnRef.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.GcnRun.run_named (F := Ideal) m ρ)
    exact ⟨(h c Cert.KernelIdeal.main_v68 (by decide)).trans (Cert.KernelIdeal.GcnBridge.result_mu m ρ c),
      (h c Cert.KernelIdeal.main_v72 (by decide)).trans (Cert.KernelIdeal.GcnBridge.result_var m ρ c),
      (h c Cert.KernelIdeal.main_arg0 (by decide)).trans (Cert.KernelIdeal.Gen.W9_main_arg0 m ρ c),
      (h c Cert.KernelIdeal.main_arg1 (by decide)).trans (Cert.KernelIdeal.Gen.W9_main_arg1 m ρ c),
      (h c Cert.KernelIdeal.main_arg2 (by decide)).trans (Cert.KernelIdeal.Gen.W9_main_arg2 m ρ c),
      (h c Cert.KernelIdeal.main_arg3 (by decide)).trans (Cert.KernelIdeal.Gen.W9_main_arg3 m ρ c),
      (h c Cert.KernelIdeal.main_arg4 (by decide)).trans (Cert.KernelIdeal.Gen.W9_main_arg4 m ρ c),
      (h c Cert.KernelIdeal.main_arg5 (by decide)).trans (Cert.KernelIdeal.Gen.W9_main_arg5 m ρ c),
      (h c Cert.KernelIdeal.main_arg6 (by decide)).trans (Cert.KernelIdeal.Gen.W9_main_arg6 m ρ c),
      (h c Cert.KernelIdeal.main_arg7 (by decide)).trans (Cert.KernelIdeal.Gen.W9_main_arg7 m ρ c)⟩
  · refine (θ_run Cert.ReferenceIdeal.defs _ _).mono (fun r h c => ⟨(h c).1.trans ?_, (h c).2.1.trans ?_, (h c).2.2⟩)
      (Cert.ReferenceIdeal.RunP.run (F := Ideal) m' ρ')
    · rw [Cert.ReferenceIdeal.GcnRef.res_mu m' c, (hagree c).1, (hagree c).2.1, (hagree c).2.2.1, (hagree c).2.2.2.1,
        (hagree c).2.2.2.2.1, (hagree c).2.2.2.2.2.1]
    · rw [Cert.ReferenceIdeal.GcnRef.res_var m' c, (hagree c).1, (hagree c).2.1, (hagree c).2.2.1, (hagree c).2.2.2.1,
        (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
